-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000 : Shape := ⟨1, ![1600000]⟩
abbrev S256x256 : Shape := ⟨2, ![256, 256]⟩
abbrev S256 : Shape := ⟨1, ![256]⟩
abbrev S1x256 : Shape := ⟨2, ![1, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_

variable [Facts]

def fn_part7 {F : FTy → Type} [FloatOps F] (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  main_v123

def fn_part6 {F : FTy → Type} [FloatOps F] (main_arg22 : FVec F S1x256 .f32) (main_arg23 : FVec F S1x256 .f32) (main_arg24 : FVec F S256x256 .f32) (main_arg25 : FVec F S256 .f32) (main_v98 : IVec S_ 1) (main_v101 : IVec S1x256 1) (main_c_39 : IVec S_ 1) : IVec S_ 1 :=
  let main_v102 : IVec S_ 1 := (fun x v => Host.reduce IntOp.andi x v reducesTo_S1x256_S_d0_1 h_S_) main_v101 main_c_39
  let main_v103 : IVec S_ 1 := andi main_v98 main_v102
  let main_v104 : FVec F S1x256 .f32 := Host.absf main_arg22
  let main_cst_40 : FVec F S_ .f32 := constant S_ .f32 0x7F800000#32
  let main_v105 : FVec F S1x256 .f32 := broadcastInDim S1x256 ![] bcast_S_S1x256 main_cst_40
  let main_v106 : IVec S1x256 1 := cmpf .olt main_v104 main_v105
  let main_c_41 : IVec S_ 1 := constantI S_ 1 1#1
  let main_v107 : IVec S_ 1 := (fun x v => Host.reduce IntOp.andi x v reducesTo_S1x256_S_d0_1 h_S_) main_v106 main_c_41
  let main_v108 : IVec S_ 1 := andi main_v103 main_v107
  let main_v109 : FVec F S1x256 .f32 := Host.absf main_arg23
  let main_cst_42 : FVec F S_ .f32 := constant S_ .f32 0x7F800000#32
  let main_v110 : FVec F S1x256 .f32 := broadcastInDim S1x256 ![] bcast_S_S1x256 main_cst_42
  let main_v111 : IVec S1x256 1 := cmpf .olt main_v109 main_v110
  let main_c_43 : IVec S_ 1 := constantI S_ 1 1#1
  let main_v112 : IVec S_ 1 := (fun x v => Host.reduce IntOp.andi x v reducesTo_S1x256_S_d0_1 h_S_) main_v111 main_c_43
  let main_v113 : IVec S_ 1 := andi main_v108 main_v112
  let main_v114 : FVec F S256x256 .f32 := Host.absf main_arg24
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256 .f32 := Host.absf main_arg25
  fn_part7 (F := F) main_v118 main_v119

def fn_part5 {F : FTy → Type} [FloatOps F] (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S1x256 .f32 := Host.absf main_arg19
  let main_cst_34 : FVec F S_ .f32 := constant S_ .f32 0x7F800000#32
  let main_v90 : FVec F S1x256 .f32 := broadcastInDim S1x256 ![] bcast_S_S1x256 main_cst_34
  let main_v91 : IVec S1x256 1 := cmpf .olt main_v89 main_v90
  let main_c_35 : IVec S_ 1 := constantI S_ 1 1#1
  let main_v92 : IVec S_ 1 := (fun x v => Host.reduce IntOp.andi x v reducesTo_S1x256_S_d0_1 h_S_) main_v91 main_c_35
  let main_v93 : IVec S_ 1 := andi main_v88 main_v92
  let main_v94 : FVec F S1x256 .f32 := Host.absf main_arg20
  let main_cst_36 : FVec F S_ .f32 := constant S_ .f32 0x7F800000#32
  let main_v95 : FVec F S1x256 .f32 := broadcastInDim S1x256 ![] bcast_S_S1x256 main_cst_36
  let main_v96 : IVec S1x256 1 := cmpf .olt main_v94 main_v95
  let main_c_37 : IVec S_ 1 := constantI S_ 1 1#1
  let main_v97 : IVec S_ 1 := (fun x v => Host.reduce IntOp.andi x v reducesTo_S1x256_S_d0_1 h_S_) main_v96 main_c_37
  let main_v98 : IVec S_ 1 := andi main_v93 main_v97
  let main_v99 : FVec F S1x256 .f32 := Host.absf main_arg21
  let main_cst_38 : FVec F S_ .f32 := constant S_ .f32 0x7F800000#32
  let main_v100 : FVec F S1x256 .f32 := broadcastInDim S1x256 ![] bcast_S_S1x256 main_cst_38
  let main_v101 : IVec S1x256 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S256 .f32) (main_arg16 : FVec F S256 .f32) (main_arg17 : FVec F S1x256 .f32) (main_arg18 : FVec F S1x256 .f32) (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S1x256 .f32 := Host.absf main_arg17
  let main_cst_30 : FVec F S_ .f32 := constant S_ .f32 0x7F800000#32
  let main_v80 : FVec F S1x256 .f32 := broadcastInDim S1x256 ![] bcast_S_S1x256 main_cst_30
  let main_v81 : IVec S1x256 1 := cmpf .olt main_v79 main_v80
  let main_c_31 : IVec S_ 1 := constantI S_ 1 1#1
  let main_v82 : IVec S_ 1 := (fun x v => Host.reduce IntOp.andi x v reducesTo_S1x256_S_d0_1 h_S_) main_v81 main_c_31
  let main_v83 : IVec S_ 1 := andi main_v78 main_v82
  let main_v84 : FVec F S1x256 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S256x256 .f32) (main_arg13 : FVec F S256 .f32) (main_arg14 : FVec F S256 .f32) (main_arg15 : FVec F S256 .f32) (main_arg16 : FVec F S256 .f32) (main_arg17 : FVec F S1x256 .f32) (main_arg18 : FVec F S1x256 .f32) (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S256x256 .f32) (main_arg9 : FVec F S256x256 .f32) (main_arg10 : FVec F S256x256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S1x256 .f32) (main_arg18 : FVec F S1x256 .f32) (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S256x256 .f32) (main_arg6 : FVec F S256x256 .f32) (main_arg7 : FVec F S256x256 .f32) (main_arg8 : FVec F S256x256 .f32) (main_arg9 : FVec F S256x256 .f32) (main_arg10 : FVec F S256x256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S1x256 .f32) (main_arg18 : FVec F S1x256 .f32) (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x256 .f32) (main_arg1 : IVec S2x1600000 32) (main_arg2 : FVec F S1600000 .f32) (main_arg3 : FVec F S50000x256 .f32) (main_arg4 : FVec F S50000x256 .f32) (main_arg5 : FVec F S256x256 .f32) (main_arg6 : FVec F S256x256 .f32) (main_arg7 : FVec F S256x256 .f32) (main_arg8 : FVec F S256x256 .f32) (main_arg9 : FVec F S256x256 .f32) (main_arg10 : FVec F S256x256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S1x256 .f32) (main_arg18 : FVec F S1x256 .f32) (main_arg19 : FVec F S1x256 .f32) (main_arg20 : FVec F S1x256 .f32) (main_arg21 : FVec F S1x256 .f32) (main_arg22 : FVec F S1x256 .f32) (main_arg23 : FVec F S1x256 .f32) (main_arg24 : FVec F S256x256 .f32) (main_arg25 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000x256 .f32 := Host.absf main_arg4
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x256 : Shape := ⟨2, ![50000, 256]⟩
abbrev S2x1600000 : Shape := ⟨2, ![2, 1600000]⟩
abbrev S1600000 : Shape := ⟨1, ![1600000]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S1x1024 : Shape := ⟨2, ![1, 1024]⟩
abbrev S1000x256 : Shape := ⟨2, ![1000, 256]⟩
abbrev S1000x1024 : Shape := ⟨2, ![1000, 1024]⟩

abbrev nBuf : Space → Nat
  | .hbm => 41
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S50000x256, .f32⟩
  | .hbm, ⟨4, _⟩ => ⟨S50000x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S256x256, .f32⟩
  | .hbm, ⟨25, _⟩ => ⟨S256, .f32⟩
  | .hbm, ⟨26, _⟩ => ⟨S256x1024, .f32⟩
  | .hbm, ⟨27, _⟩ => ⟨S256x1024, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x1024, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12_0 : Ref sig .tc := ⟨.hbm, 38, rfl⟩
abbrev main_v12_1 : Ref sig .tc := ⟨.hbm, 39, rfl⟩
abbrev main_v12_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1000x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1000x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S256x256_S256x256_S256x256_S256x256_S256x1024_d1 : Shape.Concatenates [S256x256, S256x256, S256x256, S256x256] S256x1024 1
  bcast_S256_S1x256_1 : S256.BroadcastsInDim S1x256 (![1] : Fin 1 → Fin S1x256.rank)
  concatenates_S1x256_S1x256_S1x256_S1x256_S1x1024_d1 : Shape.Concatenates [S1x256, S1x256, S1x256, S1x256] S1x1024 1
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  slices_S1000x1024_o0_0_S1000x256 : S1000x1024.Slices ![0, 0] S1000x256
  slices_S1000x1024_o0_256_S1000x256 : S1000x1024.Slices ![0, 256] S1000x256
  slices_S1000x1024_o0_512_S1000x256 : S1000x1024.Slices ![0, 512] S1000x256
  slices_S1000x1024_o0_768_S1000x256 : S1000x1024.Slices ![0, 768] S1000x256
  inb_S1x256_S1x256_0_0 : ∀ a, (![0, 0] : Fin 2 → Nat) a + S1x256.size a ≤ S1x256.size a
  h_S1x256 : 0 < S1x256.numel
  broadcasts_S1x256_S1000x256 : S1x256.Broadcasts S1000x256
  inb_S256x256_S256x256_0_0 : ∀ a, (![0, 0] : Fin 2 → Nat) a + S256x256.size a ≤ S256x256.size a
  h_S256x256 : 0 < S256x256.numel
  shapeCasts_S1x256_S1x256 : S1x256.ShapeCasts S1x256
  dot_S1000x256_S256x1024_S1000x1024_1_0_0_1_n_n_wf : DotDims.WF S1000x256 S256x1024 S1000x1024 [1] [0] [0] [1] [] []
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S50000x256.size a
  hwx0_1 : ∀ i : grid0.Coords, EltTy.bits .f32 = 32 ∨ (Rect.block (s := S50000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x256.size a ≤ S50000x256.size a
  hwx0_11 : ∀ i : grid0.Coords, EltTy.bits .f32 = 32 ∨ (Rect.block (s := S50000x256) S1000x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x256.size a ≤ S50000x256.size a
  hwx0_12 : ∀ i : grid0.Coords, EltTy.bits .f32 = 32 ∨ (Rect.block (s := S50000x256) S1000x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1000x256.size a ≤ S50000x256.size a
  hwx0_13 : ∀ i : grid0.Coords, EltTy.bits .f32 = 32 ∨ (Rect.block (s := S50000x256) S1000x256.size (cc0_transform_13 i) (hinb0_13 i)).WholeWords (EltTy.packing .f32)

variable [Facts₀]

def dot_S1000x256_S256x1024_S1000x1024_1_0_0_1_n_n : DotDims S1000x256 S256x1024 S1000x1024 where
  lhsContracting := [1]
  rhsContracting := [0]
  lhsNonContracting := [0]
  rhsNonContracting := [1]
  lhsBatch := []
  rhsBatch := []
  wf := dot_S1000x256_S256x1024_S1000x1024_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg17) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg18) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg19) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg24) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12_0) S1000x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_1) S1000x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12_2) S1000x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000 : Shape := ⟨1, ![1600000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 104
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S50000x256, .f32⟩
  | .hbm, ⟨4, _⟩ => ⟨S50000x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S256x256, .f32⟩
  | .hbm, ⟨25, _⟩ => ⟨S256, .f32⟩
  | .hbm, ⟨26, _⟩ => ⟨S50000x256, .f32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S_, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S_, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000x256, .f32⟩
  | .hbm, ⟨94, _⟩ => ⟨S50000x256, .f32⟩
  | .hbm, ⟨95, _⟩ => ⟨S50000x256, .f32⟩
  | .hbm, ⟨96, _⟩ => ⟨S50000x256, .f32⟩
  | .hbm, ⟨97, _⟩ => ⟨S_, .f32⟩
  | .hbm, ⟨98, _⟩ => ⟨S50000x256, .f32⟩
  | .hbm, ⟨99, _⟩ => ⟨S50000x256, .f32⟩
  | .hbm, ⟨100, _⟩ => ⟨S50000x256, .f32⟩
  | .hbm, ⟨101, _⟩ => ⟨S1x256, .f32⟩
  | .hbm, ⟨102, _⟩ => ⟨S50000x256, .f32⟩
  | .hbm, ⟨103, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_1 : Ref sig .tc := ⟨.hbm, 58, rfl⟩
abbrev main_v30 : Ref sig .tc := ⟨.hbm, 59, rfl⟩
abbrev main_v31 : Ref sig .tc := ⟨.hbm, 60, rfl⟩
abbrev main_cst_2 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_3 : Ref sig .tc := ⟨.hbm, 89, rfl⟩
abbrev main_v59 : Ref sig .tc := ⟨.hbm, 90, rfl⟩
abbrev main_v60 : Ref sig .tc := ⟨.hbm, 91, rfl⟩
abbrev main_cst_4 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call0_cst : Ref sig .tc := ⟨.hbm, 97, rfl⟩
abbrev main_call0_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.FrameKernel.lean ====
/-
  The frame of this program at any float instance `F`: every weakly fair execution of @main terminates, nothing
  faults, and the 26 argument arrays end as they were launched.

  @main is twelve host operations followed by one region on a grid of 50 points. The host operations lay the four
  input-weight matrices side by side into one 256 × 1024 matrix, the four hidden-weight matrices likewise, add each
  gate's two bias rows and lay the four sums side by side into one 1 × 1024 row, and reshape the output bias to a row;
  each writes only its own result buffer, so the region finds every argument array as launched. At point `t` the
  region stages rows 1000·t … 1000·t + 999 of x, h and c and the whole of the eight small operands, runs the body once,
  and writes rows 1000·t … 1000·t + 999 of the three results back. The body loads each staged block whole, computes, and
  stores each result block whole, so what it leaves in a result's buffer is a function of the staged input blocks alone.
-/
import proofs.«168229_j14474039788131_2_alg».proof.Proof.Gen.Kernel.Launch
import proofs.«168229_j14474039788131_2_alg».proof.Proof.Gen.Kernel.Skeleton
import proofs.«168229_j14474039788131_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the twelve host operations. -/
abbrev V (c : Dev nD) (b : Ref sig .tc) : Buf (Elt F) ((c : Thread nD τ).loc b) :=
  StableHlo.after (List.flatten [hostOps0]) (fun b => m (c, b)) b

/-- None of the host operations allocates. -/
theorem hostOps0_fresh : (hostOps0 : List (HloOp τ sig (Elt F))).Forall fun op => op.fresh = ∅ := by
  simp only [List.Forall]; repeat' constructor

/-- @main is its host operations, then the region: the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 22: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 23: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 24: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 25: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether the point fetches it or not (an
    unfetched point has the same block index as the point before), for any proof data over `V` whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, whether the point fetches it or not (an
    unfetched point has the same block index as the point before), for any proof data over `V` whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, whether the point fetches it or not (an
    unfetched point has the same block index as the point before), for any proof data over `V` whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, whether the point fetches it or not (an
    unfetched point has the same block index as the point before), for any proof data over `V` whose body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, whether the point fetches it or not (an
    unfetched point has the same block index as the point before), for any proof data over `V` whose body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, whether the point fetches it or not (an
    unfetched point has the same block index as the point before), for any proof data over `V` whose body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, whether the point fetches it or not (an
    unfetched point has the same block index as the point before), for any proof data over `V` whose body leaves
    the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, whether the point fetches it or not (an
    unfetched point has the same block index as the point before), for any proof data over `V` whose body leaves
    the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, whether the point fetches it or not (an
    unfetched point has the same block index as the point before), for any proof data over `V` whose body leaves
    the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, whether the point fetches it or not (an
    unfetched point has the same block index as the point before), for any proof data over `V` whose body leaves
    the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, whether the point fetches it or not (an
    unfetched point has the same block index as the point before), for any proof data over `V` whose body leaves
    the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every array of the region at what the proof data computes and every other buffer as the
    region found it: an argument a window stages is an input window's array, which no write-back touches; any other
    argument is among the other buffers; and the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 6).trans (((dats 0 c).arrAt_in 6 rfl _).trans ((hA c 6).trans (V_main_arg17 m c))),
      ((h c).1 7).trans (((dats 0 c).arrAt_in 7 rfl _).trans ((hA c 7).trans (V_main_arg18 m c))),
      ((h c).1 8).trans (((dats 0 c).arrAt_in 8 rfl _).trans ((hA c 8).trans (V_main_arg19 m c))),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).1 9).trans (((dats 0 c).arrAt_in 9 rfl _).trans ((hA c 9).trans (V_main_arg24 m c))),
      ((h c).2 main_arg25 (Pipeline.mem_restRefs_of main_arg25 (by decide) (by decide))).trans (V_main_arg25 m c)⟩) h

/-! ## What the body leaves in each result's buffer -/

/-- Window 11's buffer after the body — the projected result of the point's rows — from the staged input blocks: one store
    over the whole block. -/
def out0_11 (x0 : Vec F S1000x256 .f32) (x1 : Vec F S1000x256 .f32) (x2 : Vec F S1000x256 .f32) (x3 : Vec F S256x1024 .f32) (x4 : Vec F S256x1024 .f32) (x5 : Vec F S1x1024 .f32) (x6 : Vec F S1x256 .f32) (x7 : Vec F S1x256 .f32) (x8 : Vec F S1x256 .f32) (x9 : Vec F S256x256 .f32) (x10 : Vec F S1x256 .f32) : Vec F S1000x256 .f32 :=
  View.canon [⟨(Rect.unit (s := S1000x256) ![0, 0] S1000x256.size inb_S1000x256_S1000x256_0_0), k0_pay2 (k0_pay4 (View.ld x0 (Rect.unit (s := S1000x256) ![0, 0] S1000x256.size inb_S1000x256_S1000x256_0_0)) (View.ld x1 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0))) (k0_pay5 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0)) (View.ld x6 (Rect.unit (s := S1x256) ![0, 0] S1x256.size inb_S1x256_S1x256_0_0)) (View.ld x7 (Rect.unit (s := S1x256) ![0, 0] S1x256.size inb_S1x256_S1x256_0_0))) (k0_pay6 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0)) (View.ld x6 (Rect.unit (s := S1x256) ![0, 0] S1x256.size inb_S1x256_S1x256_0_0)) (View.ld x7 (Rect.unit (s := S1x256) ![0, 0] S1x256.size inb_S1x256_S1x256_0_0)) (View.ld x8 (Rect.unit (s := S1x256) ![0, 0] S1x256.size inb_S1x256_S1x256_0_0))) (View.ld x9 (Rect.unit (s := S256x256) ![0, 0] S256x256.size inb_S256x256_S256x256_0_0)) (View.ld x10 (Rect.unit (s := S1x256) ![0, 0] S1x256.size inb_S1x256_S1x256_0_0))⟩]

/-- Its one store covers the block. -/
theorem cover0_11 (p0 : Vec F S1000x256 .f32) (y : S1000x256.Idx) :
    ∃ pc ∈ ([⟨(Rect.unit (s := S1000x256) ![0, 0] S1000x256.size inb_S1000x256_S1000x256_0_0), p0⟩] : List (View.Piece (Elt F) S1000x256 .f32)), y ∈ pc.1.set :=
  View.cover_of_tiled [⟨(Rect.unit (s := S1000x256) ![0, 0] S1000x256.size inb_S1000x256_S1000x256_0_0), p0⟩] S1000x256.size (by rfl) y

/-- Window 12's buffer after the body — the new hidden state of the point's rows — from the staged input blocks: one store
    over the whole block. -/
def out0_12 (x0 : Vec F S1000x256 .f32) (x1 : Vec F S1000x256 .f32) (x2 : Vec F S1000x256 .f32) (x3 : Vec F S256x1024 .f32) (x4 : Vec F S256x1024 .f32) (x5 : Vec F S1x1024 .f32) (x6 : Vec F S1x256 .f32) (x7 : Vec F S1x256 .f32) (x8 : Vec F S1x256 .f32) : Vec F S1000x256 .f32 :=
  View.canon [⟨(Rect.unit (s := S1000x256) ![0, 0] S1000x256.size inb_S1000x256_S1000x256_0_0), k0_pay1 (k0_pay4 (View.ld x0 (Rect.unit (s := S1000x256) ![0, 0] S1000x256.size inb_S1000x256_S1000x256_0_0)) (View.ld x1 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0))) (k0_pay5 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0)) (View.ld x6 (Rect.unit (s := S1x256) ![0, 0] S1x256.size inb_S1x256_S1x256_0_0)) (View.ld x7 (Rect.unit (s := S1x256) ![0, 0] S1x256.size inb_S1x256_S1x256_0_0))) (k0_pay6 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0)) (View.ld x6 (Rect.unit (s := S1x256) ![0, 0] S1x256.size inb_S1x256_S1x256_0_0)) (View.ld x7 (Rect.unit (s := S1x256) ![0, 0] S1x256.size inb_S1x256_S1x256_0_0)) (View.ld x8 (Rect.unit (s := S1x256) ![0, 0] S1x256.size inb_S1x256_S1x256_0_0)))⟩]

/-- Its one store covers the block. -/
theorem cover0_12 (p0 : Vec F S1000x256 .f32) (y : S1000x256.Idx) :
    ∃ pc ∈ ([⟨(Rect.unit (s := S1000x256) ![0, 0] S1000x256.size inb_S1000x256_S1000x256_0_0), p0⟩] : List (View.Piece (Elt F) S1000x256 .f32)), y ∈ pc.1.set :=
  View.cover_of_tiled [⟨(Rect.unit (s := S1000x256) ![0, 0] S1000x256.size inb_S1000x256_S1000x256_0_0), p0⟩] S1000x256.size (by rfl) y

/-- Window 13's buffer after the body — the new cell state of the point's rows — from the staged input blocks: one store
    over the whole block. -/
def out0_13 (x0 : Vec F S1000x256 .f32) (x1 : Vec F S1000x256 .f32) (x2 : Vec F S1000x256 .f32) (x3 : Vec F S256x1024 .f32) (x4 : Vec F S256x1024 .f32) (x5 : Vec F S1x1024 .f32) (x6 : Vec F S1x256 .f32) (x7 : Vec F S1x256 .f32) : Vec F S1000x256 .f32 :=
  View.canon [⟨(Rect.unit (s := S1000x256) ![0, 0] S1000x256.size inb_S1000x256_S1000x256_0_0), k0_pay5 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0)) (View.ld x6 (Rect.unit (s := S1x256) ![0, 0] S1x256.size inb_S1x256_S1x256_0_0)) (View.ld x7 (Rect.unit (s := S1x256) ![0, 0] S1x256.size inb_S1x256_S1x256_0_0))⟩]

/-- Its one store covers the block. -/
theorem cover0_13 (p0 : Vec F S1000x256 .f32) (y : S1000x256.Idx) :
    ∃ pc ∈ ([⟨(Rect.unit (s := S1000x256) ![0, 0] S1000x256.size inb_S1000x256_S1000x256_0_0), p0⟩] : List (View.Piece (Elt F) S1000x256 .f32)), y ∈ pc.1.set :=
  View.cover_of_tiled [⟨(Rect.unit (s := S1000x256) ![0, 0] S1000x256.size inb_S1000x256_S1000x256_0_0), p0⟩] S1000x256.size (by rfl) y

/-! ## The body's triple -/

set_option maxHeartbeats 4000000 in
/-- The body on whole buffers — the inputs' at contents `xW`, the results' at anything — runs to its end holding the
    inputs' as they were and each result's at `out0_W` of the inputs'. -/
theorem sound_kernel (c : Dev nD) (E : Set ℕ) (i : grid0.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1000x256 .f32) (harg12 : arg12.IsWhole) (arg13 : Memref sig .tc .vmem S1000x256 .f32) (harg13 : arg13.IsWhole) (arg14 : Memref sig .tc .vmem S1000x256 .f32) (harg14 : arg14.IsWhole)
    (x0 : Vec F S1000x256 .f32) (x1 : Vec F S1000x256 .f32) (x2 : Vec F S1000x256 .f32) (x3 : Vec F S256x1024 .f32) (x4 : Vec F S256x1024 .f32) (x5 : Vec F S1x1024 .f32) (x6 : Vec F S1x256 .f32) (x7 : Vec F S1x256 .f32) (x8 : Vec F S1x256 .f32) (x9 : Vec F S256x256 .f32) (x10 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8) ∗ owns (c : Thread nD τ) arg14 fullShare (out0_13 x0 x1 x2 x3 x4 x5 x6 x7)) -∗ K ⟨⟩))
      ⊢ wp frame (wpE (defs₀ (F := F)) Variants.none c none) E (cc0__gclstm_linear_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gclstm_linear_kernel_eq_skeleton]; unfold cc0__gclstm_linear_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  isplitl [H12]
  · iexists _; isplitr
    swap; · iexact H12
    ipureintro
    try dsimp only
    exact View.read_writes_eq_canon _ _ _ (cover0_12 _)
  iexists _; isplitr
  swap; · iexact H13
  ipureintro
  try dsimp only
  exact View.read_writes_eq_canon _ _ _ (cover0_13 _)

/-! ## The proof data -/

/-- On core `c`: the arrays as the region finds them; after the body at point `t` each input's buffer at its block and
    each result's at `out0_W` of the input blocks; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t)
    | ⟨13, _⟩ => out0_13 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- At any point the inputs' buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    write-backs of the proof data leave in it and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

end Cert.Kernel.Frame

end
-- ==== Proof.FrameKernelIdeal.lean ====
/-
  The frame of this program at any float instance `F`: every weakly fair execution of @main terminates, nothing
  faults, and the 26 argument arrays end as they were launched.

  @main is twelve host operations followed by one region on a grid of 50 points. The host operations lay the four
  input-weight matrices side by side into one 256 × 1024 matrix, the four hidden-weight matrices likewise, add each
  gate's two bias rows and lay the four sums side by side into one 1 × 1024 row, and reshape the output bias to a row;
  each writes only its own result buffer, so the region finds every argument array as launched. At point `t` the
  region stages rows 1000·t … 1000·t + 999 of x, h and c and the whole of the eight small operands, runs the body once,
  and writes rows 1000·t … 1000·t + 999 of the three results back. The body loads each staged block whole, computes, and
  stores each result block whole, so what it leaves in a result's buffer is a function of the staged input blocks alone.
-/
import proofs.«168229_j14474039788131_2_alg».proof.Proof.Gen.KernelIdeal.Launch
import proofs.«168229_j14474039788131_2_alg».proof.Proof.Gen.KernelIdeal.Skeleton
import proofs.«168229_j14474039788131_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the twelve host operations. -/
abbrev V (c : Dev nD) (b : Ref sig .tc) : Buf (Elt F) ((c : Thread nD τ).loc b) :=
  StableHlo.after (List.flatten [hostOps0]) (fun b => m (c, b)) b

/-- None of the host operations allocates. -/
theorem hostOps0_fresh : (hostOps0 : List (HloOp τ sig (Elt F))).Forall fun op => op.fresh = ∅ := by
  simp only [List.Forall]; repeat' constructor

/-- @main is its host operations, then the region: the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 22: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 23: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 24: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation writes argument 25: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether the point fetches it or not (an
    unfetched point has the same block index as the point before), for any proof data over `V` whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, whether the point fetches it or not (an
    unfetched point has the same block index as the point before), for any proof data over `V` whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, whether the point fetches it or not (an
    unfetched point has the same block index as the point before), for any proof data over `V` whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, whether the point fetches it or not (an
    unfetched point has the same block index as the point before), for any proof data over `V` whose body leaves
    the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, whether the point fetches it or not (an
    unfetched point has the same block index as the point before), for any proof data over `V` whose body leaves
    the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, whether the point fetches it or not (an
    unfetched point has the same block index as the point before), for any proof data over `V` whose body leaves
    the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, whether the point fetches it or not (an
    unfetched point has the same block index as the point before), for any proof data over `V` whose body leaves
    the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, whether the point fetches it or not (an
    unfetched point has the same block index as the point before), for any proof data over `V` whose body leaves
    the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, whether the point fetches it or not (an
    unfetched point has the same block index as the point before), for any proof data over `V` whose body leaves
    the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, whether the point fetches it or not (an
    unfetched point has the same block index as the point before), for any proof data over `V` whose body leaves
    the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, whether the point fetches it or not (an
    unfetched point has the same block index as the point before), for any proof data over `V` whose body leaves
    the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every array of the region at what the proof data computes and every other buffer as the
    region found it: an argument a window stages is an input window's array, which no write-back touches; any other
    argument is among the other buffers; and the region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 6).trans (((dats 0 c).arrAt_in 6 rfl _).trans ((hA c 6).trans (V_main_arg17 m c))),
      ((h c).1 7).trans (((dats 0 c).arrAt_in 7 rfl _).trans ((hA c 7).trans (V_main_arg18 m c))),
      ((h c).1 8).trans (((dats 0 c).arrAt_in 8 rfl _).trans ((hA c 8).trans (V_main_arg19 m c))),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).1 9).trans (((dats 0 c).arrAt_in 9 rfl _).trans ((hA c 9).trans (V_main_arg24 m c))),
      ((h c).2 main_arg25 (Pipeline.mem_restRefs_of main_arg25 (by decide) (by decide))).trans (V_main_arg25 m c)⟩) h

/-! ## What the body leaves in each result's buffer -/

/-- Window 11's buffer after the body — the projected result of the point's rows — from the staged input blocks: one store
    over the whole block. -/
def out0_11 (x0 : Vec F S1000x256 .f32) (x1 : Vec F S1000x256 .f32) (x2 : Vec F S1000x256 .f32) (x3 : Vec F S256x1024 .f32) (x4 : Vec F S256x1024 .f32) (x5 : Vec F S1x1024 .f32) (x6 : Vec F S1x256 .f32) (x7 : Vec F S1x256 .f32) (x8 : Vec F S1x256 .f32) (x9 : Vec F S256x256 .f32) (x10 : Vec F S1x256 .f32) : Vec F S1000x256 .f32 :=
  View.canon [⟨(Rect.unit (s := S1000x256) ![0, 0] S1000x256.size inb_S1000x256_S1000x256_0_0), k0_pay2 (k0_pay4 (View.ld x0 (Rect.unit (s := S1000x256) ![0, 0] S1000x256.size inb_S1000x256_S1000x256_0_0)) (View.ld x1 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0))) (k0_pay5 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0)) (View.ld x6 (Rect.unit (s := S1x256) ![0, 0] S1x256.size inb_S1x256_S1x256_0_0)) (View.ld x7 (Rect.unit (s := S1x256) ![0, 0] S1x256.size inb_S1x256_S1x256_0_0))) (k0_pay6 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0)) (View.ld x6 (Rect.unit (s := S1x256) ![0, 0] S1x256.size inb_S1x256_S1x256_0_0)) (View.ld x7 (Rect.unit (s := S1x256) ![0, 0] S1x256.size inb_S1x256_S1x256_0_0)) (View.ld x8 (Rect.unit (s := S1x256) ![0, 0] S1x256.size inb_S1x256_S1x256_0_0))) (View.ld x9 (Rect.unit (s := S256x256) ![0, 0] S256x256.size inb_S256x256_S256x256_0_0)) (View.ld x10 (Rect.unit (s := S1x256) ![0, 0] S1x256.size inb_S1x256_S1x256_0_0))⟩]

/-- Its one store covers the block. -/
theorem cover0_11 (p0 : Vec F S1000x256 .f32) (y : S1000x256.Idx) :
    ∃ pc ∈ ([⟨(Rect.unit (s := S1000x256) ![0, 0] S1000x256.size inb_S1000x256_S1000x256_0_0), p0⟩] : List (View.Piece (Elt F) S1000x256 .f32)), y ∈ pc.1.set :=
  View.cover_of_tiled [⟨(Rect.unit (s := S1000x256) ![0, 0] S1000x256.size inb_S1000x256_S1000x256_0_0), p0⟩] S1000x256.size (by rfl) y

/-- Window 12's buffer after the body — the new hidden state of the point's rows — from the staged input blocks: one store
    over the whole block. -/
def out0_12 (x0 : Vec F S1000x256 .f32) (x1 : Vec F S1000x256 .f32) (x2 : Vec F S1000x256 .f32) (x3 : Vec F S256x1024 .f32) (x4 : Vec F S256x1024 .f32) (x5 : Vec F S1x1024 .f32) (x6 : Vec F S1x256 .f32) (x7 : Vec F S1x256 .f32) (x8 : Vec F S1x256 .f32) : Vec F S1000x256 .f32 :=
  View.canon [⟨(Rect.unit (s := S1000x256) ![0, 0] S1000x256.size inb_S1000x256_S1000x256_0_0), k0_pay1 (k0_pay4 (View.ld x0 (Rect.unit (s := S1000x256) ![0, 0] S1000x256.size inb_S1000x256_S1000x256_0_0)) (View.ld x1 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0))) (k0_pay5 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0)) (View.ld x6 (Rect.unit (s := S1x256) ![0, 0] S1x256.size inb_S1x256_S1x256_0_0)) (View.ld x7 (Rect.unit (s := S1x256) ![0, 0] S1x256.size inb_S1x256_S1x256_0_0))) (k0_pay6 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0)) (View.ld x6 (Rect.unit (s := S1x256) ![0, 0] S1x256.size inb_S1x256_S1x256_0_0)) (View.ld x7 (Rect.unit (s := S1x256) ![0, 0] S1x256.size inb_S1x256_S1x256_0_0)) (View.ld x8 (Rect.unit (s := S1x256) ![0, 0] S1x256.size inb_S1x256_S1x256_0_0)))⟩]

/-- Its one store covers the block. -/
theorem cover0_12 (p0 : Vec F S1000x256 .f32) (y : S1000x256.Idx) :
    ∃ pc ∈ ([⟨(Rect.unit (s := S1000x256) ![0, 0] S1000x256.size inb_S1000x256_S1000x256_0_0), p0⟩] : List (View.Piece (Elt F) S1000x256 .f32)), y ∈ pc.1.set :=
  View.cover_of_tiled [⟨(Rect.unit (s := S1000x256) ![0, 0] S1000x256.size inb_S1000x256_S1000x256_0_0), p0⟩] S1000x256.size (by rfl) y

/-- Window 13's buffer after the body — the new cell state of the point's rows — from the staged input blocks: one store
    over the whole block. -/
def out0_13 (x0 : Vec F S1000x256 .f32) (x1 : Vec F S1000x256 .f32) (x2 : Vec F S1000x256 .f32) (x3 : Vec F S256x1024 .f32) (x4 : Vec F S256x1024 .f32) (x5 : Vec F S1x1024 .f32) (x6 : Vec F S1x256 .f32) (x7 : Vec F S1x256 .f32) : Vec F S1000x256 .f32 :=
  View.canon [⟨(Rect.unit (s := S1000x256) ![0, 0] S1000x256.size inb_S1000x256_S1000x256_0_0), k0_pay5 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S1000x256) ![0, 0] S1000x256.size inb_S1000x256_S1000x256_0_0)) (View.ld x3 (Rect.unit (s := S256x1024) ![0, 0] S256x1024.size inb_S256x1024_S256x1024_0_0)) (View.ld x4 (Rect.unit (s := S256x1024) ![0, 0] S256x1024.size inb_S256x1024_S256x1024_0_0)) (View.ld x5 (Rect.unit (s := S1x1024) ![0, 0] S1x1024.size inb_S1x1024_S1x1024_0_0)) (View.ld x6 (Rect.unit (s := S1x256) ![0, 0] S1x256.size inb_S1x256_S1x256_0_0)) (View.ld x7 (Rect.unit (s := S1x256) ![0, 0] S1x256.size inb_S1x256_S1x256_0_0))⟩]

/-- Its one store covers the block. -/
theorem cover0_13 (p0 : Vec F S1000x256 .f32) (y : S1000x256.Idx) :
    ∃ pc ∈ ([⟨(Rect.unit (s := S1000x256) ![0, 0] S1000x256.size inb_S1000x256_S1000x256_0_0), p0⟩] : List (View.Piece (Elt F) S1000x256 .f32)), y ∈ pc.1.set :=
  View.cover_of_tiled [⟨(Rect.unit (s := S1000x256) ![0, 0] S1000x256.size inb_S1000x256_S1000x256_0_0), p0⟩] S1000x256.size (by rfl) y

/-! ## The body's triple -/

set_option maxHeartbeats 4000000 in
/-- The body on whole buffers — the inputs' at contents `xW`, the results' at anything — runs to its end holding the
    inputs' as they were and each result's at `out0_W` of the inputs'. -/
theorem sound_kernel (c : Dev nD) (E : Set ℕ) (i : grid0.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S1000x256 .f32) (harg12 : arg12.IsWhole) (arg13 : Memref sig .tc .vmem S1000x256 .f32) (harg13 : arg13.IsWhole) (arg14 : Memref sig .tc .vmem S1000x256 .f32) (harg14 : arg14.IsWhole)
    (x0 : Vec F S1000x256 .f32) (x1 : Vec F S1000x256 .f32) (x2 : Vec F S1000x256 .f32) (x3 : Vec F S256x1024 .f32) (x4 : Vec F S256x1024 .f32) (x5 : Vec F S1x1024 .f32) (x6 : Vec F S1x256 .f32) (x7 : Vec F S1x256 .f32) (x8 : Vec F S1x256 .f32) (x9 : Vec F S256x256 .f32) (x10 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8) ∗ owns (c : Thread nD τ) arg14 fullShare (out0_13 x0 x1 x2 x3 x4 x5 x6 x7)) -∗ K ⟨⟩))
      ⊢ wp frame (wpE (defs₀ (F := F)) Variants.none c none) E (cc0__gclstm_linear_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gclstm_linear_kernel_eq_skeleton]; unfold cc0__gclstm_linear_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  isplitl [H12]
  · iexists _; isplitr
    swap; · iexact H12
    ipureintro
    try dsimp only
    exact View.read_writes_eq_canon _ _ _ (cover0_12 _)
  iexists _; isplitr
  swap; · iexact H13
  ipureintro
  try dsimp only
  exact View.read_writes_eq_canon _ _ _ (cover0_13 _)

/-! ## The proof data -/

/-- On core `c`: the arrays as the region finds them; after the body at point `t` each input's buffer at its block and
    each result's at `out0_W` of the input blocks; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t)
    | ⟨13, _⟩ => out0_13 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- At any point the inputs' buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    write-backs of the proof data leave in it and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

end Cert.KernelIdeal.Frame

end
-- ==== Proof.CellSpec.lean ====
/-
  The recurrent cell as one function of a node's rows, element by element, on the extended reals.

  For a node with input row `xr`, hidden row `hr` and cell row `cr` (256 features each) and a feature `j`:
    gate g = (Σₖ xr k · W_g k j + Σₖ hr k · Θ_g k j) + b_g j                           for g ∈ {i, f, c, o}
    I = σ(gate i + w_ci j · cr j)          F = σ(gate f + w_cf j · cr j)          T = tanh(gate c)
    C = F · cr j + I · T                    O = σ(gate o + w_co j · C)             H = O · tanh C
    out = Σₖ max(H k, 0) · W_lin k j + b_lin j
  where `b_g` is the sum of the gate's two bias rows and σ z = 1 / (1 + e^(−z)), with the conventions of the
  extended reals at ±∞. A node's three results depend on no other node's rows: a program that treats the nodes a
  thousand at a time computes, for each, the same numbers as one that treats them all at once.
  The sums are grouped as written above; a program adding the same terms in another order computes the same
  element, addition of extended reals being commutative and associative (`regroup`, `regroup_peep`): no finiteness
  is needed anywhere.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- The cell's weights, entry by entry: the four input and four hidden weight matrices, the output projection, each
    gate's bias (the sum of its two bias rows), the three peephole rows and the projection's bias. -/
@[ext] structure Weights where
  Wi : Fin 256 → Fin 256 → EReal
  Wf : Fin 256 → Fin 256 → EReal
  Wc : Fin 256 → Fin 256 → EReal
  Wo : Fin 256 → Fin 256 → EReal
  Thi : Fin 256 → Fin 256 → EReal
  Thf : Fin 256 → Fin 256 → EReal
  Thc : Fin 256 → Fin 256 → EReal
  Tho : Fin 256 → Fin 256 → EReal
  bI : Fin 256 → EReal
  bF : Fin 256 → EReal
  bC : Fin 256 → EReal
  bO : Fin 256 → EReal
  wci : Fin 256 → EReal
  wcf : Fin 256 → EReal
  wco : Fin 256 → EReal
  Wlin : Fin 256 → Fin 256 → EReal
  blin : Fin 256 → EReal

/-- `(xr·W + hr·Θ) j + b j`: a gate before its peephole term and its nonlinearity. -/
def gateRow (xr hr : Fin 256 → EReal) (W Th : Fin 256 → Fin 256 → EReal) (b : Fin 256 → EReal) (j : Fin 256) : EReal :=
  ((∑ k : Fin 256, xr k * W k j) + ∑ k : Fin 256, hr k * Th k j) + b j

variable (w : Weights) (xr hr cr : Fin 256 → EReal)

/-- The input gate. -/
def inRow (j : Fin 256) : EReal := Ideal.logistic (gateRow xr hr w.Wi w.Thi w.bI j + w.wci j * cr j)
/-- The forget gate. -/
def forgetRow (j : Fin 256) : EReal := Ideal.logistic (gateRow xr hr w.Wf w.Thf w.bF j + w.wcf j * cr j)
/-- The candidate. -/
def candRow (j : Fin 256) : EReal := Ideal.tanh (gateRow xr hr w.Wc w.Thc w.bC j)
/-- The new cell state `C = F·c + I·T`. -/
def cellRow (j : Fin 256) : EReal := forgetRow w xr hr cr j * cr j + inRow w xr hr cr j * candRow w xr hr j
/-- The output gate before its nonlinearity's argument gets the peephole on the NEW cell state. -/
def outRow (j : Fin 256) : EReal := Ideal.logistic (gateRow xr hr w.Wo w.Tho w.bO j + w.wco j * cellRow w xr hr cr j)
/-- The new hidden state `H = O · tanh C`. -/
def hiddenRow (j : Fin 256) : EReal := outRow w xr hr cr j * Ideal.tanh (cellRow w xr hr cr j)
/-- The projected result `max(H, 0)·W_lin + b_lin`. -/
def projRow (j : Fin 256) : EReal :=
  (∑ k : Fin 256, max (hiddenRow w xr hr cr k) (Ideal.ofBits .f32 0x00000000#32) * w.Wlin k j) + w.blin j

/-- nodes × features -/
abbrev SRows : Shape := ⟨2, ![50000, 256]⟩

/-- Row `r` of an array of nodes × features. -/
def rowOf (x : SRows.Idx → EReal) (r : Fin 50000) : Fin 256 → EReal := fun k => x (ix2 r k)

/-- The three result arrays over all nodes: each node's results from its own rows. -/
def cellArr (x h c : SRows.Idx → EReal) : SRows.Idx → EReal :=
  fun i => cellRow w (rowOf x (i 0)) (rowOf h (i 0)) (rowOf c (i 0)) (i 1)
def hiddenArr (x h c : SRows.Idx → EReal) : SRows.Idx → EReal :=
  fun i => hiddenRow w (rowOf x (i 0)) (rowOf h (i 0)) (rowOf c (i 0)) (i 1)
def projArr (x h c : SRows.Idx → EReal) : SRows.Idx → EReal :=
  fun i => projRow w (rowOf x (i 0)) (rowOf h (i 0)) (rowOf c (i 0)) (i 1)

/-- a 256 × 256 weight matrix -/
abbrev SSq : Shape := ⟨2, ![256, 256]⟩
/-- a 1 × 256 row -/
abbrev SRow : Shape := ⟨2, ![1, 256]⟩
/-- a vector of 256 -/
abbrev SVec : Shape := ⟨1, ![256]⟩

/-- The cell's weights read off a program's weight arguments, in the order both programs take them: the four input
    weight matrices, the four hidden weight matrices, the four hidden bias vectors, the three peephole rows, the four
    gate bias rows, the projection matrix and its bias vector. Each gate's bias is the sum of its two bias arguments. -/
def weightsOf (x5 x6 x7 x8 x9 x10 x11 x12 : SSq.Idx → EReal) (x13 x14 x15 x16 : SVec.Idx → EReal)
    (x17 x18 x19 x20 x21 x22 x23 : SRow.Idx → EReal) (x24 : SSq.Idx → EReal) (x25 : SVec.Idx → EReal) : Weights where
  Wi k j := x5 (ix2 k j)
  Wf k j := x6 (ix2 k j)
  Wc k j := x7 (ix2 k j)
  Wo k j := x8 (ix2 k j)
  Thi k j := x9 (ix2 k j)
  Thf k j := x10 (ix2 k j)
  Thc k j := x11 (ix2 k j)
  Tho k j := x12 (ix2 k j)
  bI j := x13 (ix1 j) + x20 (ix2 (0 : Fin 1) j)
  bF j := x14 (ix1 j) + x21 (ix2 (0 : Fin 1) j)
  bC j := x15 (ix1 j) + x22 (ix2 (0 : Fin 1) j)
  bO j := x16 (ix1 j) + x23 (ix2 (0 : Fin 1) j)
  wci j := x17 (ix2 (0 : Fin 1) j)
  wcf j := x18 (ix2 (0 : Fin 1) j)
  wco j := x19 (ix2 (0 : Fin 1) j)
  Wlin k j := x24 (ix2 k j)
  blin j := x25 (ix1 j)

/-- Four terms added as `(p + (q + s)) + u` or as `(p + q) + (s + u)`: one extended real. -/
theorem regroup (p q s u : EReal) : p + (q + s) + u = (p + q) + (s + u) := by
  ac_rfl

/-- Five terms added as `((p + (q + s)) + v) + u` or as `((p + q) + (s + u)) + v`: one extended real. -/
theorem regroup_peep (p q s v u : EReal) : p + (q + s) + v + u = (p + q) + (s + u) + v := by
  ac_rfl

/-- `σ` is the quotient a host program spells: `1 / (1 + e^(−z))`. -/
theorem logistic_eq (z : EReal) : Ideal.logistic z = Ideal.div 1 (1 + Ideal.exp (-z)) := rfl

end Cert.Cell

end
-- ==== Proof.KernelPayload.lean ====
/-
  The kernel body's arithmetic at one element, on the extended reals.

  At a grid point the body holds 1000 rows of x, h and c, the two 256 × 1024 matrices in which the four gates' input
  and hidden weights lie side by side, the 1 × 1024 row of the four gates' summed biases, the three peephole rows, the
  projection matrix and its bias row. Its one wide product `x·W_all + h·Θ_all + bias` at column `256·g + j` is gate
  `g`'s sum at feature `j` (a product against columns laid side by side is the product against each piece; a change of
  float format is the identity on extended reals; the matrix unit's product into a zero accumulator is the plain sum).
  The four column ranges it cuts out are the four gates, and the pointwise chain after them is the cell's: so the
  three blocks the body stores are, row by row, the cell's results of the block's rows at the weights read off the
  side-by-side operands (`packed`).
-/
import proofs.«168229_j14474039788131_2_alg».proof.Proof.CellSpec
import proofs.«168229_j14474039788131_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Payload

open Cert.KernelIdeal Cert.KernelIdeal.Gen Cert.Cell
open Idealize.ShloMosaic Idealize.ShloMosaic.ValueIdx

/-! ## The two matrix products -/

theorem lhsW_0 (i : S1000x1024.Idx) (q : dot_S1000x256_S256x1024_S1000x1024_1_0_0_1_n_n.contr.Idx) : (dot_S1000x256_S256x1024_S1000x1024_1_0_0_1_n_n.lhsIdx i q 0).val = (i 0).val := by
  unfold DotDims.lhsIdx
  rw [dif_neg (show ¬(0 : Fin S1000x256.rank) ∈ dot_S1000x256_S256x1024_S1000x1024_1_0_0_1_n_n.lhsBatch by decide), dif_pos (show (0 : Fin S1000x256.rank) ∈ dot_S1000x256_S256x1024_S1000x1024_1_0_0_1_n_n.lhsNonContracting by decide)]
  rfl
theorem lhsW_1 (i : S1000x1024.Idx) (q : dot_S1000x256_S256x1024_S1000x1024_1_0_0_1_n_n.contr.Idx) : (dot_S1000x256_S256x1024_S1000x1024_1_0_0_1_n_n.lhsIdx i q 1).val = (q ⟨0, by decide⟩).val :=
  dot_S1000x256_S256x1024_S1000x1024_1_0_0_1_n_n.lhsIdx_val_of_single rfl i q
theorem rhsW_0 (i : S1000x1024.Idx) (q : dot_S1000x256_S256x1024_S1000x1024_1_0_0_1_n_n.contr.Idx) : (dot_S1000x256_S256x1024_S1000x1024_1_0_0_1_n_n.rhsIdx i q 0).val = (q ⟨0, by decide⟩).val :=
  dot_S1000x256_S256x1024_S1000x1024_1_0_0_1_n_n.rhsIdx_val_of_single rfl i q
theorem rhsW_1 (i : S1000x1024.Idx) (q : dot_S1000x256_S256x1024_S1000x1024_1_0_0_1_n_n.contr.Idx) : (dot_S1000x256_S256x1024_S1000x1024_1_0_0_1_n_n.rhsIdx i q 1).val = (i 1).val := by
  unfold DotDims.rhsIdx
  rw [dif_neg (show ¬(1 : Fin S256x1024.rank) ∈ dot_S1000x256_S256x1024_S1000x1024_1_0_0_1_n_n.rhsBatch by decide), dif_pos (show (1 : Fin S256x1024.rank) ∈ dot_S1000x256_S256x1024_S1000x1024_1_0_0_1_n_n.rhsNonContracting by decide)]
  rfl

/-- The matrix unit's product into a zero accumulator, at row `p` and column `q`: the sum over the 256 contracted
    features of the products. -/
theorem matmulW_apply (a : FVec Ideal S1000x256 .bf16) (b : FVec Ideal S256x1024 .bf16) (p : Fin 1000) (q : Fin 1024) :
    matmul dot_S1000x256_S256x1024_S1000x1024_1_0_0_1_n_n none a b (constant (F := Ideal) S1000x1024 .f32 0x00000000#32) (ix2 p q)
      = ∑ k : Fin 256, a (ix2 p k) * b (ix2 k q) := by
  simp only [matmul]
  rw [Ideal.matmul_constant_zero_apply, ← Equiv.sum_comp (contrEquiv1 dot_S1000x256_S256x1024_S1000x1024_1_0_0_1_n_n 256 rfl rfl).symm]
  refine Finset.sum_congr rfl fun k _ => ?_
  have hk := contrEquiv1_symm_val dot_S1000x256_S256x1024_S1000x1024_1_0_0_1_n_n 256 rfl rfl k
  have el : dot_S1000x256_S256x1024_S1000x1024_1_0_0_1_n_n.lhsIdx (ix2 p q) ((contrEquiv1 dot_S1000x256_S256x1024_S1000x1024_1_0_0_1_n_n 256 rfl rfl).symm k) = ix2 p k := funext fun a => Fin.ext (by
    match a with
    | ⟨0, _⟩ => exact lhsW_0 _ _
    | ⟨1, _⟩ => exact (lhsW_1 _ _).trans hk)
  have er : dot_S1000x256_S256x1024_S1000x1024_1_0_0_1_n_n.rhsIdx (ix2 p q) ((contrEquiv1 dot_S1000x256_S256x1024_S1000x1024_1_0_0_1_n_n 256 rfl rfl).symm k) = ix2 k q := funext fun a => Fin.ext (by
    match a with
    | ⟨0, _⟩ => exact (rhsW_0 _ _).trans hk
    | ⟨1, _⟩ => exact rhsW_1 _ _)
  rw [el, er]

theorem lhsS_0 (i : S1000x256.Idx) (q : dot_S1000x256_S256x256_S1000x256_1_0_0_1_n_n.contr.Idx) : (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhsS_1 (i : S1000x256.Idx) (q : dot_S1000x256_S256x256_S1000x256_1_0_0_1_n_n.contr.Idx) : (dot_S1000x256_S256x256_S1000x256_1_0_0_1_n_n.lhsIdx i q 1).val = (q ⟨0, by decide⟩).val :=
  dot_S1000x256_S256x256_S1000x256_1_0_0_1_n_n.lhsIdx_val_of_single rfl i q
theorem rhsS_0 (i : S1000x256.Idx) (q : dot_S1000x256_S256x256_S1000x256_1_0_0_1_n_n.contr.Idx) : (dot_S1000x256_S256x256_S1000x256_1_0_0_1_n_n.rhsIdx i q 0).val = (q ⟨0, by decide⟩).val :=
  dot_S1000x256_S256x256_S1000x256_1_0_0_1_n_n.rhsIdx_val_of_single rfl i q
theorem rhsS_1 (i : S1000x256.Idx) (q : dot_S1000x256_S256x256_S1000x256_1_0_0_1_n_n.contr.Idx) : (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The matrix unit's product into a zero accumulator, at row `p` and column `q`: the sum over the 256 contracted
    features of the products. -/
theorem matmulS_apply (a : FVec Ideal S1000x256 .bf16) (b : FVec Ideal S256x256 .bf16) (p : Fin 1000) (q : Fin 256) :
    matmul dot_S1000x256_S256x256_S1000x256_1_0_0_1_n_n none a b (constant (F := Ideal) S1000x256 .f32 0x00000000#32) (ix2 p q)
      = ∑ k : Fin 256, a (ix2 p k) * b (ix2 k q) := by
  simp only [matmul]
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k := funext fun a => Fin.ext (by
    match a with
    | ⟨0, _⟩ => exact lhsS_0 _ _
    | ⟨1, _⟩ => exact (lhsS_1 _ _).trans hk)
  have er : dot_S1000x256_S256x256_S1000x256_1_0_0_1_n_n.rhsIdx (ix2 p q) ((contrEquiv1 dot_S1000x256_S256x256_S1000x256_1_0_0_1_n_n 256 rfl rfl).symm k) = ix2 k q := funext fun a => Fin.ext (by
    match a with
    | ⟨0, _⟩ => exact (rhsS_0 _ _).trans hk
    | ⟨1, _⟩ => exact rhsS_1 _ _)
  rw [el, er]

/-! ## The layout operations at an element -/

/-- A 1 × 1024 row spread over 1000 rows, at an element: the row's entry in that column. -/
theorem bcastW_apply (v : FVec Ideal S1x1024 .f32) (p : Fin 1000) (q : Fin 1024) :
    broadcastTo S1000x1024 v broadcasts_S1x1024_S1000x1024 (ix2 p q) = v (ix2 (0 : Fin 1) q) :=
  broadcastTo_apply v broadcasts_S1x1024_S1000x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- A 1 × 256 row spread over 1000 rows, at an element. -/
theorem bcastS_apply (v : FVec Ideal S1x256 .f32) (p : Fin 1000) (q : Fin 256) :
    broadcastTo S1000x256 v broadcasts_S1x256_S1000x256 (ix2 p q) = v (ix2 (0 : Fin 1) q) :=
  broadcastTo_apply v broadcasts_S1x256_S1000x256 (ix2 p q) (ix2 (0 : Fin 1) q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-- Column `o + j` of a 1024-wide row: feature `j` of the gate whose range starts at `o`. -/
def colAt (o : Nat) (ho : o + 256 ≤ 1024) (j : Fin 256) : Fin 1024 := ⟨o + j.val, by have := j.isLt; omega⟩

theorem slice0_apply (v : FVec Ideal S1000x1024 .f32) (p : Fin 1000) (j : Fin 256) :
    extractStridedSlice S1000x256 ![0, 0] v slices_S1000x1024_o0_0_S1000x256 (ix2 p j) = v (ix2 p (colAt 0 (by decide) j)) :=
  extractStridedSlice_apply _ v slices_S1000x1024_o0_0_S1000x256 (ix2 p j) (ix2 p (colAt 0 (by decide) j)) (fun a => match a with
    | ⟨0, _⟩ => by show p.val = 0 + p.val; omega
    | ⟨1, _⟩ => by show 0 + j.val = 0 + j.val; rfl)

theorem slice256_apply (v : FVec Ideal S1000x1024 .f32) (p : Fin 1000) (j : Fin 256) :
    extractStridedSlice S1000x256 ![0, 256] v slices_S1000x1024_o0_256_S1000x256 (ix2 p j) = v (ix2 p (colAt 256 (by decide) j)) :=
  extractStridedSlice_apply _ v slices_S1000x1024_o0_256_S1000x256 (ix2 p j) (ix2 p (colAt 256 (by decide) j)) (fun a => match a with
    | ⟨0, _⟩ => by show p.val = 0 + p.val; omega
    | ⟨1, _⟩ => by show 256 + j.val = 256 + j.val; rfl)

theorem slice512_apply (v : FVec Ideal S1000x1024 .f32) (p : Fin 1000) (j : Fin 256) :
    extractStridedSlice S1000x256 ![0, 512] v slices_S1000x1024_o0_512_S1000x256 (ix2 p j) = v (ix2 p (colAt 512 (by decide) j)) :=
  extractStridedSlice_apply _ v slices_S1000x1024_o0_512_S1000x256 (ix2 p j) (ix2 p (colAt 512 (by decide) j)) (fun a => match a with
    | ⟨0, _⟩ => by show p.val = 0 + p.val; omega
    | ⟨1, _⟩ => by show 512 + j.val = 512 + j.val; rfl)

theorem slice768_apply (v : FVec Ideal S1000x1024 .f32) (p : Fin 1000) (j : Fin 256) :
    extractStridedSlice S1000x256 ![0, 768] v slices_S1000x1024_o0_768_S1000x256 (ix2 p j) = v (ix2 p (colAt 768 (by decide) j)) :=
  extractStridedSlice_apply _ v slices_S1000x1024_o0_768_S1000x256 (ix2 p j) (ix2 p (colAt 768 (by decide) j)) (fun a => match a with
    | ⟨0, _⟩ => by show p.val = 0 + p.val; omega
    | ⟨1, _⟩ => by show 768 + j.val = 768 + j.val; rfl)

/-! ## The weights read off the side-by-side operands -/

/-- Gate `g`'s weights are columns `256·g … 256·g + 255` of the two wide matrices and of the wide bias row; the rest are
    the operands as they stand. -/
def packed (x3 x4 : Vec Ideal S256x1024 .f32) (x5 : Vec Ideal S1x1024 .f32) (x6 x7 x8 : Vec Ideal S1x256 .f32)
    (x9 : Vec Ideal S256x256 .f32) (x10 : Vec Ideal S1x256 .f32) : Cert.Cell.Weights where
  Wi k j := x3 (ix2 k (colAt 0 (by decide) j))
  Wf k j := x3 (ix2 k (colAt 256 (by decide) j))
  Wc k j := x3 (ix2 k (colAt 512 (by decide) j))
  Wo k j := x3 (ix2 k (colAt 768 (by decide) j))
  Thi k j := x4 (ix2 k (colAt 0 (by decide) j))
  Thf k j := x4 (ix2 k (colAt 256 (by decide) j))
  Thc k j := x4 (ix2 k (colAt 512 (by decide) j))
  Tho k j := x4 (ix2 k (colAt 768 (by decide) j))
  bI j := x5 (ix2 (0 : Fin 1) (colAt 0 (by decide) j))
  bF j := x5 (ix2 (0 : Fin 1) (colAt 256 (by decide) j))
  bC j := x5 (ix2 (0 : Fin 1) (colAt 512 (by decide) j))
  bO j := x5 (ix2 (0 : Fin 1) (colAt 768 (by decide) j))
  wci j := x6 (ix2 (0 : Fin 1) j)
  wcf j := x7 (ix2 (0 : Fin 1) j)
  wco j := x8 (ix2 (0 : Fin 1) j)
  Wlin k j := x9 (ix2 k j)
  blin j := x10 (ix2 (0 : Fin 1) j)

/-- Row `p` of a 1000-row block. -/
def blockRow (x : Vec Ideal S1000x256 .f32) (p : Fin 1000) : Fin 256 → EReal := fun k => x (ix2 p k)

/-! ## The body's values at an element -/

/-- The wide sum `x·W_all + h·Θ_all + bias` at row `p`, column `q`. -/
theorem wide_apply (x0 x1 : Vec Ideal S1000x256 .f32) (x3 x4 : Vec Ideal S256x1024 .f32) (x5 : Vec Ideal S1x1024 .f32)
    (p : Fin 1000) (q : Fin 1024) :
    k0_pay3 (F := Ideal) x0 x1 x3 x4 x5 (ix2 p q)
      = ((∑ k : Fin 256, x0 (ix2 p k) * x3 (ix2 k q)) + ∑ k : Fin 256, x1 (ix2 p k) * x4 (ix2 k q)) + x5 (ix2 (0 : Fin 1) q) := by
  unfold k0_pay3
  refine congrArg₂ (· + ·) (congrArg₂ (· + ·) ?_ ?_) ?_
  · refine (matmulW_apply _ _ p q).trans (Finset.sum_congr rfl fun k _ => ?_)
    rw [shapeCast_self]; rfl
  · refine (matmulW_apply _ _ p q).trans (Finset.sum_congr rfl fun k _ => ?_)
    rw [shapeCast_self]; rfl
  · refine (bcastW_apply _ p q).trans ?_
    rw [shapeCast_self]

/-- At the column of gate `o/256`, the wide sum is that gate's sum. -/
theorem wide_gate (x0 x1 : Vec Ideal S1000x256 .f32) (x3 x4 : Vec Ideal S256x1024 .f32) (x5 : Vec Ideal S1x1024 .f32)
    (p : Fin 1000) (o : Nat) (ho : o + 256 ≤ 1024) (j : Fin 256) :
    k0_pay3 (F := Ideal) x0 x1 x3 x4 x5 (ix2 p (colAt o ho j))
      = Cert.Cell.gateRow (blockRow x0 p) (blockRow x1 p) (fun k j => x3 (ix2 k (colAt o ho j))) (fun k j => x4 (ix2 k (colAt o ho j)))
          (fun j => x5 (ix2 (0 : Fin 1) (colAt o ho j))) j :=
  wide_apply x0 x1 x3 x4 x5 p (colAt o ho j)

variable (x0 x1 x2 : Vec Ideal S1000x256 .f32) (x3 x4 : Vec Ideal S256x1024 .f32) (x5 : Vec Ideal S1x1024 .f32) (x6 x7 x8 : Vec Ideal S1x256 .f32) (x9 : Vec Ideal S256x256 .f32) (x10 : Vec Ideal S1x256 .f32)

/-- The block the body stores as the new cell state is, row by row, the cell's. -/
theorem cell_apply (p : Fin 1000) (j : Fin 256) :
    k0_pay5 (F := Ideal) x0 x1 x2 x3 x4 x5 x6 x7 (ix2 p j) = Cert.Cell.cellRow (packed x3 x4 x5 x6 x7 x8 x9 x10) (blockRow x0 p) (blockRow x1 p) (blockRow x2 p) j := by
  unfold k0_pay5
  refine congrArg₂ (· + ·)
    (congrArg₂ (· * ·) (congrArg Ideal.logistic (congrArg₂ (· + ·) ?_ (congrArg₂ (· * ·) ?_ rfl))) rfl)
    (congrArg₂ (· * ·) (congrArg Ideal.logistic (congrArg₂ (· + ·) ?_ (congrArg₂ (· * ·) ?_ rfl))) (congrArg Ideal.tanh ?_))
  · exact (slice256_apply _ p j).trans (wide_gate x0 x1 x3 x4 x5 p 256 (by decide) j)
  · exact bcastS_apply x7 p j
  · exact (slice0_apply _ p j).trans (wide_gate x0 x1 x3 x4 x5 p 0 (by decide) j)
  · exact bcastS_apply x6 p j
  · exact (slice512_apply _ p j).trans (wide_gate x0 x1 x3 x4 x5 p 512 (by decide) j)

/-- The block the body stores as the new hidden state is, row by row, the cell's. -/
theorem hidden_apply (p : Fin 1000) (j : Fin 256) :
    k0_pay1 (F := Ideal) (k0_pay4 x0 x1 x3 x4 x5) (k0_pay5 x0 x1 x2 x3 x4 x5 x6 x7) (k0_pay6 x0 x1 x2 x3 x4 x5 x6 x7 x8) (ix2 p j)
      = Cert.Cell.hiddenRow (packed x3 x4 x5 x6 x7 x8 x9 x10) (blockRow x0 p) (blockRow x1 p) (blockRow x2 p) j := by
  unfold k0_pay1
  refine congrArg₂ (· * ·) (congrArg Ideal.logistic (congrArg₂ (· + ·) ?_ ?_)) (congrArg Ideal.tanh ?_)
  · unfold k0_pay4
    exact (slice768_apply _ p j).trans (wide_gate x0 x1 x3 x4 x5 p 768 (by decide) j)
  · unfold k0_pay6
    exact congrArg₂ (· * ·) (bcastS_apply x8 p j) (cell_apply x0 x1 x2 x3 x4 x5 x6 x7 x8 x9 x10 p j)
  · exact cell_apply x0 x1 x2 x3 x4 x5 x6 x7 x8 x9 x10 p j

/-- The block the body stores as the projected result is, row by row, the cell's. -/
theorem proj_apply (p : Fin 1000) (j : Fin 256) :
    k0_pay2 (F := Ideal) (k0_pay4 x0 x1 x3 x4 x5) (k0_pay5 x0 x1 x2 x3 x4 x5 x6 x7) (k0_pay6 x0 x1 x2 x3 x4 x5 x6 x7 x8) x9 x10 (ix2 p j)
      = Cert.Cell.projRow (packed x3 x4 x5 x6 x7 x8 x9 x10) (blockRow x0 p) (blockRow x1 p) (blockRow x2 p) j := by
  unfold k0_pay2
  refine congrArg₂ (· + ·) ?_ ?_
  · refine (matmulS_apply _ _ p j).trans (Finset.sum_congr rfl fun k _ => ?_)
    exact congrArg₂ (· * ·) (congrArg₂ max (hidden_apply x0 x1 x2 x3 x4 x5 x6 x7 x8 x9 x10 p k) rfl) rfl
  · refine (bcastS_apply _ p j).trans ?_
    rw [shapeCast_self]; rfl

end Cert.KernelIdeal.Payload

end
-- ==== Proof.KernelArrays.lean ====
/-
  What the kernel program leaves in its three result arrays, on the extended reals.

  The grid has 50 points; point `t` stages rows 1000·t … 1000·t + 999 of x, h and c (block index `(t, 0)`) and every
  other operand whole (block index `(0, 0)`), and writes rows 1000·t … 1000·t + 999 of each result back. So element
  `(p, k)` of a row block is element `(1000·t + p, k)` of its array, a whole operand's block is the array, and what point
  `t` writes back is rows 1000·t … of the cell's result arrays at the weights the region finds in its operands
  (`kWeights`). Every row `r` lies in the block of point `r / 1000`, so the blocks cover each result array, which
  therefore ends holding the cell's array.
-/
import proofs.«168229_j14474039788131_2_alg».proof.Proof.FrameKernelIdeal
import proofs.«168229_j14474039788131_2_alg».proof.Proof.KernelPayload
import Idealize.ShloMosaic.Lib.Pipeline.Value

set_option maxRecDepth 16384

noncomputable section

namespace Cert.KernelIdeal.Arrays

open Cert.KernelIdeal Cert.KernelIdeal.Gen Cert.KernelIdeal.Frame Cert.KernelIdeal.Payload Cert.Cell
open Idealize.ShloMosaic Idealize.ShloMosaic.ValueIdx Idealize.ShloMosaic.TcCoe
open Idealize.SL Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the grid -/

/-- The cell-state result's block index at point `t` is `(t, 0)` with `t ≤ 49`. -/
theorem idx13 : ∀ t : Fin cfg0.N, win0_13.index t (1 : Fin 2) = 0 ∧ win0_13.index t (0 : Fin 2) ≤ 49 :=
  (by decide +kernel : ∀ t : Fin grid0.N, win0_13.index t (1 : Fin 2) = 0 ∧ win0_13.index t (0 : Fin 2) ≤ 49)
/-- Every block row is some point's. -/
theorem idx_onto13 : ∀ q0 : Fin 50, ∃ t : Fin cfg0.N, win0_13.index t = ![q0.val, 0] :=
  (by decide +kernel : ∀ q0 : Fin 50, ∃ t : Fin grid0.N, win0_13.index t = ![q0.val, 0])
/-- Window 0 moves with the cell-state result: the same block row, column block 0. -/
theorem rowsIdx0 : ∀ t : Fin cfg0.N, win0_0.index t (0 : Fin 2) = win0_13.index t (0 : Fin 2) ∧ win0_0.index t (1 : Fin 2) = 0 :=
  (by decide +kernel : ∀ t : Fin grid0.N, win0_0.index t (0 : Fin 2) = win0_13.index t (0 : Fin 2) ∧ win0_0.index t (1 : Fin 2) = 0)
/-- Window 1 moves with the cell-state result: the same block row, column block 0. -/
theorem rowsIdx1 : ∀ t : Fin cfg0.N, win0_1.index t (0 : Fin 2) = win0_13.index t (0 : Fin 2) ∧ win0_1.index t (1 : Fin 2) = 0 :=
  (by decide +kernel : ∀ t : Fin grid0.N, win0_1.index t (0 : Fin 2) = win0_13.index t (0 : Fin 2) ∧ win0_1.index t (1 : Fin 2) = 0)
/-- Window 2 moves with the cell-state result: the same block row, column block 0. -/
theorem rowsIdx2 : ∀ t : Fin cfg0.N, win0_2.index t (0 : Fin 2) = win0_13.index t (0 : Fin 2) ∧ win0_2.index t (1 : Fin 2) = 0 :=
  (by decide +kernel : ∀ t : Fin grid0.N, win0_2.index t (0 : Fin 2) = win0_13.index t (0 : Fin 2) ∧ win0_2.index t (1 : Fin 2) = 0)
/-- Window 11 moves with the cell-state result: the same block row, column block 0. -/
theorem rowsIdx11 : ∀ t : Fin cfg0.N, win0_11.index t (0 : Fin 2) = win0_13.index t (0 : Fin 2) ∧ win0_11.index t (1 : Fin 2) = 0 :=
  (by decide +kernel : ∀ t : Fin grid0.N, win0_11.index t (0 : Fin 2) = win0_13.index t (0 : Fin 2) ∧ win0_11.index t (1 : Fin 2) = 0)
/-- Window 12 moves with the cell-state result: the same block row, column block 0. -/
theorem rowsIdx12 : ∀ t : Fin cfg0.N, win0_12.index t (0 : Fin 2) = win0_13.index t (0 : Fin 2) ∧ win0_12.index t (1 : Fin 2) = 0 :=
  (by decide +kernel : ∀ t : Fin grid0.N, win0_12.index t (0 : Fin 2) = win0_13.index t (0 : Fin 2) ∧ win0_12.index t (1 : Fin 2) = 0)
theorem rowsIdx13 : ∀ t : Fin cfg0.N, win0_13.index t (0 : Fin 2) = win0_13.index t (0 : Fin 2) ∧ win0_13.index t (1 : Fin 2) = 0 :=
  fun t => ⟨rfl, (idx13 t).1⟩
/-- Window 3 stays at block (0, 0). -/
theorem wholeIdx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4 stays at block (0, 0). -/
theorem wholeIdx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5 stays at block (0, 0). -/
theorem wholeIdx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6 stays at block (0, 0). -/
theorem wholeIdx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7 stays at block (0, 0). -/
theorem wholeIdx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8 stays at block (0, 0). -/
theorem wholeIdx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 9 stays at block (0, 0). -/
theorem wholeIdx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Window 10 stays at block (0, 0). -/
theorem wholeIdx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-! ## A block's elements in its array -/

/-- Row `p` of point `t`'s blocks is row `1000·t + p` of the arrays. -/
def rowAt (t : Fin cfg0.N) (p : Fin 1000) : Fin 50000 :=
  ⟨win0_13.index t (0 : Fin 2) * 1000 + p.val, by have := (idx13 t).2; have := p.isLt; omega⟩

theorem emb_rows0 (t : Fin cfg0.N) (p : Fin 1000) (k : Fin 256) :
    ((cfg0.win 0).blk t).view.emb (ix2 p k) = ix2 (rowAt t p) k := by
  funext a; apply Fin.ext
  match a with
  | ⟨0, _⟩ => show win0_0.index t (0 : Fin 2) * 1000 + 1 * p.val = win0_13.index t (0 : Fin 2) * 1000 + p.val; have := (rowsIdx0 t).1; omega
  | ⟨1, _⟩ => show win0_0.index t (1 : Fin 2) * 256 + 1 * k.val = k.val; have := (rowsIdx0 t).2; omega
theorem emb_rows1 (t : Fin cfg0.N) (p : Fin 1000) (k : Fin 256) :
    ((cfg0.win 1).blk t).view.emb (ix2 p k) = ix2 (rowAt t p) k := by
  funext a; apply Fin.ext
  match a with
  | ⟨0, _⟩ => show win0_1.index t (0 : Fin 2) * 1000 + 1 * p.val = win0_13.index t (0 : Fin 2) * 1000 + p.val; have := (rowsIdx1 t).1; omega
  | ⟨1, _⟩ => show win0_1.index t (1 : Fin 2) * 256 + 1 * k.val = k.val; have := (rowsIdx1 t).2; omega
theorem emb_rows2 (t : Fin cfg0.N) (p : Fin 1000) (k : Fin 256) :
    ((cfg0.win 2).blk t).view.emb (ix2 p k) = ix2 (rowAt t p) k := by
  funext a; apply Fin.ext
  match a with
  | ⟨0, _⟩ => show win0_2.index t (0 : Fin 2) * 1000 + 1 * p.val = win0_13.index t (0 : Fin 2) * 1000 + p.val; have := (rowsIdx2 t).1; omega
  | ⟨1, _⟩ => show win0_2.index t (1 : Fin 2) * 256 + 1 * k.val = k.val; have := (rowsIdx2 t).2; omega
theorem emb_rows11 (t : Fin cfg0.N) (p : Fin 1000) (k : Fin 256) :
    ((cfg0.win 11).blk t).view.emb (ix2 p k) = ix2 (rowAt t p) k := by
  funext a; apply Fin.ext
  match a with
  | ⟨0, _⟩ => show win0_11.index t (0 : Fin 2) * 1000 + 1 * p.val = win0_13.index t (0 : Fin 2) * 1000 + p.val; have := (rowsIdx11 t).1; omega
  | ⟨1, _⟩ => show win0_11.index t (1 : Fin 2) * 256 + 1 * k.val = k.val; have := (rowsIdx11 t).2; omega
theorem emb_rows12 (t : Fin cfg0.N) (p : Fin 1000) (k : Fin 256) :
    ((cfg0.win 12).blk t).view.emb (ix2 p k) = ix2 (rowAt t p) k := by
  funext a; apply Fin.ext
  match a with
  | ⟨0, _⟩ => show win0_12.index t (0 : Fin 2) * 1000 + 1 * p.val = win0_13.index t (0 : Fin 2) * 1000 + p.val; have := (rowsIdx12 t).1; omega
  | ⟨1, _⟩ => show win0_12.index t (1 : Fin 2) * 256 + 1 * k.val = k.val; have := (rowsIdx12 t).2; omega
theorem emb_rows13 (t : Fin cfg0.N) (p : Fin 1000) (k : Fin 256) :
    ((cfg0.win 13).blk t).view.emb (ix2 p k) = ix2 (rowAt t p) k := by
  funext a; apply Fin.ext
  match a with
  | ⟨0, _⟩ => show win0_13.index t (0 : Fin 2) * 1000 + 1 * p.val = win0_13.index t (0 : Fin 2) * 1000 + p.val; have := (rowsIdx13 t).1; omega
  | ⟨1, _⟩ => show win0_13.index t (1 : Fin 2) * 256 + 1 * k.val = k.val; have := (rowsIdx13 t).2; omega
theorem emb_whole3 (t : Fin cfg0.N) (y : S256x1024.Idx) : ((cfg0.win 3).blk t).view.emb y = y := by
  funext a; apply Fin.ext
  match a with
  | ⟨0, _⟩ => show win0_3.index t (0 : Fin 2) * 256 + 1 * (y 0).val = (y 0).val; have := (wholeIdx3 t).1; omega
  | ⟨1, _⟩ => show win0_3.index t (1 : Fin 2) * 1024 + 1 * (y 1).val = (y 1).val; have := (wholeIdx3 t).2; omega
theorem emb_whole4 (t : Fin cfg0.N) (y : S256x1024.Idx) : ((cfg0.win 4).blk t).view.emb y = y := by
  funext a; apply Fin.ext
  match a with
  | ⟨0, _⟩ => show win0_4.index t (0 : Fin 2) * 256 + 1 * (y 0).val = (y 0).val; have := (wholeIdx4 t).1; omega
  | ⟨1, _⟩ => show win0_4.index t (1 : Fin 2) * 1024 + 1 * (y 1).val = (y 1).val; have := (wholeIdx4 t).2; omega
theorem emb_whole5 (t : Fin cfg0.N) (y : S1x1024.Idx) : ((cfg0.win 5).blk t).view.emb y = y := by
  funext a; apply Fin.ext
  match a with
  | ⟨0, _⟩ => show win0_5.index t (0 : Fin 2) * 1 + 1 * (y 0).val = (y 0).val; have := (wholeIdx5 t).1; omega
  | ⟨1, _⟩ => show win0_5.index t (1 : Fin 2) * 1024 + 1 * (y 1).val = (y 1).val; have := (wholeIdx5 t).2; omega
theorem emb_whole6 (t : Fin cfg0.N) (y : S1x256.Idx) : ((cfg0.win 6).blk t).view.emb y = y := by
  funext a; apply Fin.ext
  match a with
  | ⟨0, _⟩ => show win0_6.index t (0 : Fin 2) * 1 + 1 * (y 0).val = (y 0).val; have := (wholeIdx6 t).1; omega
  | ⟨1, _⟩ => show win0_6.index t (1 : Fin 2) * 256 + 1 * (y 1).val = (y 1).val; have := (wholeIdx6 t).2; omega
theorem emb_whole7 (t : Fin cfg0.N) (y : S1x256.Idx) : ((cfg0.win 7).blk t).view.emb y = y := by
  funext a; apply Fin.ext
  match a with
  | ⟨0, _⟩ => show win0_7.index t (0 : Fin 2) * 1 + 1 * (y 0).val = (y 0).val; have := (wholeIdx7 t).1; omega
  | ⟨1, _⟩ => show win0_7.index t (1 : Fin 2) * 256 + 1 * (y 1).val = (y 1).val; have := (wholeIdx7 t).2; omega
theorem emb_whole8 (t : Fin cfg0.N) (y : S1x256.Idx) : ((cfg0.win 8).blk t).view.emb y = y := by
  funext a; apply Fin.ext
  match a with
  | ⟨0, _⟩ => show win0_8.index t (0 : Fin 2) * 1 + 1 * (y 0).val = (y 0).val; have := (wholeIdx8 t).1; omega
  | ⟨1, _⟩ => show win0_8.index t (1 : Fin 2) * 256 + 1 * (y 1).val = (y 1).val; have := (wholeIdx8 t).2; omega
theorem emb_whole9 (t : Fin cfg0.N) (y : S256x256.Idx) : ((cfg0.win 9).blk t).view.emb y = y := by
  funext a; apply Fin.ext
  match a with
  | ⟨0, _⟩ => show win0_9.index t (0 : Fin 2) * 256 + 1 * (y 0).val = (y 0).val; have := (wholeIdx9 t).1; omega
  | ⟨1, _⟩ => show win0_9.index t (1 : Fin 2) * 256 + 1 * (y 1).val = (y 1).val; have := (wholeIdx9 t).2; omega
theorem emb_whole10 (t : Fin cfg0.N) (y : S1x256.Idx) : ((cfg0.win 10).blk t).view.emb y = y := by
  funext a; apply Fin.ext
  match a with
  | ⟨0, _⟩ => show win0_10.index t (0 : Fin 2) * 1 + 1 * (y 0).val = (y 0).val; have := (wholeIdx10 t).1; omega
  | ⟨1, _⟩ => show win0_10.index t (1 : Fin 2) * 256 + 1 * (y 1).val = (y 1).val; have := (wholeIdx10 t).2; omega

/-! ## The staged blocks read off the arrays -/

/-- Row `p` of window 0's block at point `t` is row `1000·t + p` of its array. -/
theorem blockRow0 (c : Dev nD) (t : Fin cfg0.N) (p : Fin 1000) :
    blockRow (iblk m c 0 t) p = rowOf (V m c main_arg0) (rowAt t p) := by
  funext k
  show V m c main_arg0 (((cfg0.win 0).blk t).view.emb (ix2 p k)) = V m c main_arg0 (ix2 (rowAt t p) k)
  rw [emb_rows0]
/-- Row `p` of window 1's block at point `t` is row `1000·t + p` of its array. -/
theorem blockRow1 (c : Dev nD) (t : Fin cfg0.N) (p : Fin 1000) :
    blockRow (iblk m c 1 t) p = rowOf (V m c main_arg3) (rowAt t p) := by
  funext k
  show V m c main_arg3 (((cfg0.win 1).blk t).view.emb (ix2 p k)) = V m c main_arg3 (ix2 (rowAt t p) k)
  rw [emb_rows1]
/-- Row `p` of window 2's block at point `t` is row `1000·t + p` of its array. -/
theorem blockRow2 (c : Dev nD) (t : Fin cfg0.N) (p : Fin 1000) :
    blockRow (iblk m c 2 t) p = rowOf (V m c main_arg4) (rowAt t p) := by
  funext k
  show V m c main_arg4 (((cfg0.win 2).blk t).view.emb (ix2 p k)) = V m c main_arg4 (ix2 (rowAt t p) k)
  rw [emb_rows2]
/-- Window 3's block is its whole array, at every point. -/
theorem iblk_whole3 (c : Dev nD) (t : Fin cfg0.N) : iblk m c 3 t = V m c main_v0 := by
  funext y
  show V m c main_v0 (((cfg0.win 3).blk t).view.emb y) = V m c main_v0 y
  rw [emb_whole3]
/-- Window 4's block is its whole array, at every point. -/
theorem iblk_whole4 (c : Dev nD) (t : Fin cfg0.N) : iblk m c 4 t = V m c main_v1 := by
  funext y
  show V m c main_v1 (((cfg0.win 4).blk t).view.emb y) = V m c main_v1 y
  rw [emb_whole4]
/-- Window 5's block is its whole array, at every point. -/
theorem iblk_whole5 (c : Dev nD) (t : Fin cfg0.N) : iblk m c 5 t = V m c main_v10 := by
  funext y
  show V m c main_v10 (((cfg0.win 5).blk t).view.emb y) = V m c main_v10 y
  rw [emb_whole5]
/-- Window 6's block is its whole array, at every point. -/
theorem iblk_whole6 (c : Dev nD) (t : Fin cfg0.N) : iblk m c 6 t = V m c main_arg17 := by
  funext y
  show V m c main_arg17 (((cfg0.win 6).blk t).view.emb y) = V m c main_arg17 y
  rw [emb_whole6]
/-- Window 7's block is its whole array, at every point. -/
theorem iblk_whole7 (c : Dev nD) (t : Fin cfg0.N) : iblk m c 7 t = V m c main_arg18 := by
  funext y
  show V m c main_arg18 (((cfg0.win 7).blk t).view.emb y) = V m c main_arg18 y
  rw [emb_whole7]
/-- Window 8's block is its whole array, at every point. -/
theorem iblk_whole8 (c : Dev nD) (t : Fin cfg0.N) : iblk m c 8 t = V m c main_arg19 := by
  funext y
  show V m c main_arg19 (((cfg0.win 8).blk t).view.emb y) = V m c main_arg19 y
  rw [emb_whole8]
/-- Window 9's block is its whole array, at every point. -/
theorem iblk_whole9 (c : Dev nD) (t : Fin cfg0.N) : iblk m c 9 t = V m c main_arg24 := by
  funext y
  show V m c main_arg24 (((cfg0.win 9).blk t).view.emb y) = V m c main_arg24 y
  rw [emb_whole9]
/-- Window 10's block is its whole array, at every point. -/
theorem iblk_whole10 (c : Dev nD) (t : Fin cfg0.N) : iblk m c 10 t = V m c main_v11 := by
  funext y
  show V m c main_v11 (((cfg0.win 10).blk t).view.emb y) = V m c main_v11 y
  rw [emb_whole10]

/-- The cell's weights as the region finds them in its operands: the two side-by-side weight matrices and the
    side-by-side bias row the host operations wrote, the peephole rows, the projection matrix and its bias row. -/
def kWeights (c : Dev nD) : Cert.Cell.Weights :=
  packed (V m c main_v0) (V m c main_v1) (V m c main_v10) (V m c main_arg17) (V m c main_arg18) (V m c main_arg19)
    (V m c main_arg24) (V m c main_v11)

/-! ## What each point writes back, the cover, the final arrays -/

/-- What point `t` writes back into result window 13 is block `t` of the cell's array. -/
theorem flushed13_eq (c : Dev nD) (t : Fin cfg0.N) :
    (dats m 0 c).flushed 13 t = ((cfg0.win 13).blk t).view.read (Elt Ideal) (cellArr (kWeights m c) (V m c main_arg0) (V m c main_arg3) (V m c main_arg4)) := by
  show (cfg0.win 13).cut (grid0.coords t) ((dats m 0 c).after 13 t) = _
  rw [after0_13]
  unfold out0_13
  rw [View.canon_unit_zero hz]
  simp only [View.ld_unit_zero (S := S1000x256) hz, View.ld_unit_zero (S := S256x1024) hz, View.ld_unit_zero (S := S1x1024) hz,
    View.ld_unit_zero (S := S1x256) hz, View.ld_unit_zero (S := S256x256) hz]
  funext y
  obtain ⟨p, q, rfl⟩ : ∃ (p : Fin 1000) (q : Fin 256), y = ix2 p q := ⟨y 0, y 1, eq_ix2 y⟩
  refine (cell_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  show _ = cellArr (kWeights m c) (V m c main_arg0) (V m c main_arg3) (V m c main_arg4) (((cfg0.win 13).blk t).view.emb (ix2 p q))
  rw [emb_rows13, blockRow0, blockRow1, blockRow2, iblk_whole3, iblk_whole4, iblk_whole5, iblk_whole6, iblk_whole7, iblk_whole8, iblk_whole9, iblk_whole10]
  rfl

/-- An index of the array is in point `t`'s block iff each coordinate is in the block's range on its axis. -/
theorem mem_blk13 (t : Fin cfg0.N) (i : S50000x256.Idx) :
    i ∈ ((cfg0.win 13).blk t).view.set ↔ ∀ a : Fin 2, win0_13.index t a * S1000x256.size a ≤ (i a).val ∧ (i a).val < win0_13.index t a * S1000x256.size a + S1000x256.size a := by
  show i ∈ ((View.whole main_v12_2).slice (win0_13.rect t)).set ↔ _
  rw [View.set_slice_whole, Rect.mem_set_unit]
  exact Iff.rfl

/-- Row `r` lies in the block of point `r / 1000`. -/
theorem cover13 (i : S50000x256.Idx) : ∃ t : Fin cfg0.N, (cfg0.win 13).flush t = true ∧ i ∈ ((cfg0.win 13).blk t).view.set := by
  have hi0 : (i 0).val < 50000 := (i 0).isLt
  have hi1 : (i 1).val < 256 := (i 1).isLt
  obtain ⟨t, ht⟩ := idx_onto13 ⟨(i 0).val / 1000, by omega⟩
  have q0 : win0_13.index t (0 : Fin 2) = (i 0).val / 1000 := congrFun ht 0
  have r0 := (rowsIdx13 t).1
  have r1 := (rowsIdx13 t).2
  refine ⟨t, flush0_13 t, ?_⟩
  rw [mem_blk13]
  intro a
  match a with
  | ⟨0, _⟩ => show win0_13.index t (0 : Fin 2) * 1000 ≤ (i 0).val ∧ (i 0).val < win0_13.index t (0 : Fin 2) * 1000 + 1000; omega
  | ⟨1, _⟩ => show win0_13.index t (1 : Fin 2) * 256 ≤ (i 1).val ∧ (i 1).val < win0_13.index t (1 : Fin 2) * 256 + 256; omega

/-- The result array after the run. -/
theorem final13 (c : Dev nD) : (dats m 0 c).arrAt 13 cfg0.N = cellArr (kWeights m c) (V m c main_arg0) (V m c main_arg3) (V m c main_arg4) :=
  (dats m 0 c).arrAt_eq_of_cover 13 _ (fun t _ => flushed13_eq m c t) (cover13)

/-- What point `t` writes back into result window 12 is block `t` of the cell's array. -/
theorem flushed12_eq (c : Dev nD) (t : Fin cfg0.N) :
    (dats m 0 c).flushed 12 t = ((cfg0.win 12).blk t).view.read (Elt Ideal) (hiddenArr (kWeights m c) (V m c main_arg0) (V m c main_arg3) (V m c main_arg4)) := by
  show (cfg0.win 12).cut (grid0.coords t) ((dats m 0 c).after 12 t) = _
  rw [after0_12]
  unfold out0_12
  rw [View.canon_unit_zero hz]
  simp only [View.ld_unit_zero (S := S1000x256) hz, View.ld_unit_zero (S := S256x1024) hz, View.ld_unit_zero (S := S1x1024) hz,
    View.ld_unit_zero (S := S1x256) hz, View.ld_unit_zero (S := S256x256) hz]
  funext y
  obtain ⟨p, q, rfl⟩ : ∃ (p : Fin 1000) (q : Fin 256), y = ix2 p q := ⟨y 0, y 1, eq_ix2 y⟩
  refine (hidden_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  show _ = hiddenArr (kWeights m c) (V m c main_arg0) (V m c main_arg3) (V m c main_arg4) (((cfg0.win 12).blk t).view.emb (ix2 p q))
  rw [emb_rows12, blockRow0, blockRow1, blockRow2, iblk_whole3, iblk_whole4, iblk_whole5, iblk_whole6, iblk_whole7, iblk_whole8, iblk_whole9, iblk_whole10]
  rfl

/-- An index of the array is in point `t`'s block iff each coordinate is in the block's range on its axis. -/
theorem mem_blk12 (t : Fin cfg0.N) (i : S50000x256.Idx) :
    i ∈ ((cfg0.win 12).blk t).view.set ↔ ∀ a : Fin 2, win0_12.index t a * S1000x256.size a ≤ (i a).val ∧ (i a).val < win0_12.index t a * S1000x256.size a + S1000x256.size a := by
  show i ∈ ((View.whole main_v12_1).slice (win0_12.rect t)).set ↔ _
  rw [View.set_slice_whole, Rect.mem_set_unit]
  exact Iff.rfl

/-- Row `r` lies in the block of point `r / 1000`. -/
theorem cover12 (i : S50000x256.Idx) : ∃ t : Fin cfg0.N, (cfg0.win 12).flush t = true ∧ i ∈ ((cfg0.win 12).blk t).view.set := by
  have hi0 : (i 0).val < 50000 := (i 0).isLt
  have hi1 : (i 1).val < 256 := (i 1).isLt
  obtain ⟨t, ht⟩ := idx_onto13 ⟨(i 0).val / 1000, by omega⟩
  have q0 : win0_13.index t (0 : Fin 2) = (i 0).val / 1000 := congrFun ht 0
  have r0 := (rowsIdx12 t).1
  have r1 := (rowsIdx12 t).2
  refine ⟨t, flush0_12 t, ?_⟩
  rw [mem_blk12]
  intro a
  match a with
  | ⟨0, _⟩ => show win0_12.index t (0 : Fin 2) * 1000 ≤ (i 0).val ∧ (i 0).val < win0_12.index t (0 : Fin 2) * 1000 + 1000; omega
  | ⟨1, _⟩ => show win0_12.index t (1 : Fin 2) * 256 ≤ (i 1).val ∧ (i 1).val < win0_12.index t (1 : Fin 2) * 256 + 256; omega

/-- The result array after the run. -/
theorem final12 (c : Dev nD) : (dats m 0 c).arrAt 12 cfg0.N = hiddenArr (kWeights m c) (V m c main_arg0) (V m c main_arg3) (V m c main_arg4) :=
  (dats m 0 c).arrAt_eq_of_cover 12 _ (fun t _ => flushed12_eq m c t) (cover12)

/-- What point `t` writes back into result window 11 is block `t` of the cell's array. -/
theorem flushed11_eq (c : Dev nD) (t : Fin cfg0.N) :
    (dats m 0 c).flushed 11 t = ((cfg0.win 11).blk t).view.read (Elt Ideal) (projArr (kWeights m c) (V m c main_arg0) (V m c main_arg3) (V m c main_arg4)) := by
  show (cfg0.win 11).cut (grid0.coords t) ((dats m 0 c).after 11 t) = _
  rw [after0_11]
  unfold out0_11
  rw [View.canon_unit_zero hz]
  simp only [View.ld_unit_zero (S := S1000x256) hz, View.ld_unit_zero (S := S256x1024) hz, View.ld_unit_zero (S := S1x1024) hz,
    View.ld_unit_zero (S := S1x256) hz, View.ld_unit_zero (S := S256x256) hz]
  funext y
  obtain ⟨p, q, rfl⟩ : ∃ (p : Fin 1000) (q : Fin 256), y = ix2 p q := ⟨y 0, y 1, eq_ix2 y⟩
  refine (proj_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  show _ = projArr (kWeights m c) (V m c main_arg0) (V m c main_arg3) (V m c main_arg4) (((cfg0.win 11).blk t).view.emb (ix2 p q))
  rw [emb_rows11, blockRow0, blockRow1, blockRow2, iblk_whole3, iblk_whole4, iblk_whole5, iblk_whole6, iblk_whole7, iblk_whole8, iblk_whole9, iblk_whole10]
  rfl

/-- An index of the array is in point `t`'s block iff each coordinate is in the block's range on its axis. -/
theorem mem_blk11 (t : Fin cfg0.N) (i : S50000x256.Idx) :
    i ∈ ((cfg0.win 11).blk t).view.set ↔ ∀ a : Fin 2, win0_11.index t a * S1000x256.size a ≤ (i a).val ∧ (i a).val < win0_11.index t a * S1000x256.size a + S1000x256.size a := by
  show i ∈ ((View.whole main_v12_0).slice (win0_11.rect t)).set ↔ _
  rw [View.set_slice_whole, Rect.mem_set_unit]
  exact Iff.rfl

/-- Row `r` lies in the block of point `r / 1000`. -/
theorem cover11 (i : S50000x256.Idx) : ∃ t : Fin cfg0.N, (cfg0.win 11).flush t = true ∧ i ∈ ((cfg0.win 11).blk t).view.set := by
  have hi0 : (i 0).val < 50000 := (i 0).isLt
  have hi1 : (i 1).val < 256 := (i 1).isLt
  obtain ⟨t, ht⟩ := idx_onto13 ⟨(i 0).val / 1000, by omega⟩
  have q0 : win0_13.index t (0 : Fin 2) = (i 0).val / 1000 := congrFun ht 0
  have r0 := (rowsIdx11 t).1
  have r1 := (rowsIdx11 t).2
  refine ⟨t, flush0_11 t, ?_⟩
  rw [mem_blk11]
  intro a
  match a with
  | ⟨0, _⟩ => show win0_11.index t (0 : Fin 2) * 1000 ≤ (i 0).val ∧ (i 0).val < win0_11.index t (0 : Fin 2) * 1000 + 1000; omega
  | ⟨1, _⟩ => show win0_11.index t (1 : Fin 2) * 256 ≤ (i 1).val ∧ (i 1).val < win0_11.index t (1 : Fin 2) * 256 + 256; omega

/-- The result array after the run. -/
theorem final11 (c : Dev nD) : (dats m 0 c).arrAt 11 cfg0.N = projArr (kWeights m c) (V m c main_arg0) (V m c main_arg3) (V m c main_arg4) :=
  (dats m 0 c).arrAt_eq_of_cover 11 _ (fun t _ => flushed11_eq m c t) (cover11)

/-! ## The run, read -/

/-- Every weakly fair execution terminates with the three result arrays at the cell's arrays of x, h, c and the weights
    the region finds, and every argument array as launched. -/
theorem run : θ_run defs (onTc (τ := τ) (main (F := Ideal))) ⟨m, fun _ => 0, ρ⟩ (fun r => ∀ c : Dev nD,
      r.2.mem ((c.tc : Thread nD τ).loc main_v12_0) = projArr (kWeights m c) (V m c main_arg0) (V m c main_arg3) (V m c main_arg4)
      ∧ r.2.mem ((c.tc : Thread nD τ).loc main_v12_1) = hiddenArr (kWeights m c) (V m c main_arg0) (V m c main_arg3) (V m c main_arg4)
      ∧ r.2.mem ((c.tc : Thread nD τ).loc main_v12_2) = cellArr (kWeights m c) (V m c main_arg0) (V m c main_arg3) (V m c main_arg4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).1 11).trans (final11 m c), ((h c).1 12).trans (final12 m c), ((h c).1 13).trans (final13 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 6).trans (((dats m 0 c).arrAt_in 6 rfl _).trans ((A_eq m c 6).trans (V_main_arg17 m c))),
      ((h c).1 7).trans (((dats m 0 c).arrAt_in 7 rfl _).trans ((A_eq m c 7).trans (V_main_arg18 m c))),
      ((h c).1 8).trans (((dats m 0 c).arrAt_in 8 rfl _).trans ((A_eq m c 8).trans (V_main_arg19 m c))),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).1 9).trans (((dats m 0 c).arrAt_in 9 rfl _).trans ((A_eq m c 9).trans (V_main_arg24 m c))),
      ((h c).2 main_arg25 (Pipeline.mem_restRefs_of main_arg25 (by decide) (by decide))).trans (V_main_arg25 m c)⟩) (run_main m ρ)

end Cert.KernelIdeal.Arrays

end
-- ==== Proof.HostWeights.lean ====
/-
  The weights the region finds are the cell's weights of the arguments.

  Before the region the host lays the four input weight matrices side by side into one 256 × 1024 matrix, the four
  hidden weight matrices likewise, adds each gate's hidden bias vector (as a 1 × 256 row) to its bias row and lays the
  four sums side by side into one 1 × 1024 row, and reshapes the projection's bias vector to a row. Column `256·g + j`
  of a side-by-side operand is column `j` of its piece `g`; a vector read as a 1 × 256 row has the vector's entry in
  each column. So the weights read off the region's operands (`kWeights`) are, entry by entry, the weights read off
  the arguments (`Cell.weightsOf`).
-/
import proofs.«168229_j14474039788131_2_alg».proof.Proof.KernelArrays
import Idealize.ShloMosaic.Lib.StableHlo.Run
import Idealize.ShloMosaic.Lib.Pipeline.Value

set_option maxRecDepth 16384

noncomputable section

namespace Cert.KernelIdeal.HostWeights

open Cert.KernelIdeal Cert.KernelIdeal.Gen Cert.KernelIdeal.Frame Cert.KernelIdeal.Payload Cert.KernelIdeal.Arrays Cert.Cell
open Idealize.ShloMosaic Idealize.ShloMosaic.ValueIdx Idealize.ShloMosaic.TcCoe Idealize.SL.Sem Idealize.ShloMosaic.StableHlo

/-! ## A side-by-side operand at a column of piece `g` -/

theorem concW0 (u0 u1 u2 u3 : S256x256.Idx → EReal) (k : Fin 256) (j : Fin 256) :
    concatenate S256x1024 1 [⟨S256x256, u0⟩, ⟨S256x256, u1⟩, ⟨S256x256, u2⟩, ⟨S256x256, u3⟩] concatenates_S256x256_S256x256_S256x256_S256x256_S256x1024_d1 (ix2 k (colAt 0 (by decide) j)) = u0 (ix2 k j) :=
  concatenate_apply_piece 1 _ _ (ix2 k (colAt 0 (by decide) j)) 0 (by show (0 : Nat) < 4; omega) S256x256 u0 rfl rfl 0 (by rfl) (ix2 k j)
    (fun b hb => by match b with | ⟨0, _⟩ => rfl | ⟨1, _⟩ => exact absurd rfl hb)
    (by show 0 + j.val = 0 + j.val; rfl)
theorem concW1 (u0 u1 u2 u3 : S256x256.Idx → EReal) (k : Fin 256) (j : Fin 256) :
    concatenate S256x1024 1 [⟨S256x256, u0⟩, ⟨S256x256, u1⟩, ⟨S256x256, u2⟩, ⟨S256x256, u3⟩] concatenates_S256x256_S256x256_S256x256_S256x256_S256x1024_d1 (ix2 k (colAt 256 (by decide) j)) = u1 (ix2 k j) :=
  concatenate_apply_piece 1 _ _ (ix2 k (colAt 256 (by decide) j)) 1 (by show (1 : Nat) < 4; omega) S256x256 u1 rfl rfl 256 (by rfl) (ix2 k j)
    (fun b hb => by match b with | ⟨0, _⟩ => rfl | ⟨1, _⟩ => exact absurd rfl hb)
    (by show 256 + j.val = 256 + j.val; rfl)
theorem concW2 (u0 u1 u2 u3 : S256x256.Idx → EReal) (k : Fin 256) (j : Fin 256) :
    concatenate S256x1024 1 [⟨S256x256, u0⟩, ⟨S256x256, u1⟩, ⟨S256x256, u2⟩, ⟨S256x256, u3⟩] concatenates_S256x256_S256x256_S256x256_S256x256_S256x1024_d1 (ix2 k (colAt 512 (by decide) j)) = u2 (ix2 k j) :=
  concatenate_apply_piece 1 _ _ (ix2 k (colAt 512 (by decide) j)) 2 (by show (2 : Nat) < 4; omega) S256x256 u2 rfl rfl 512 (by rfl) (ix2 k j)
    (fun b hb => by match b with | ⟨0, _⟩ => rfl | ⟨1, _⟩ => exact absurd rfl hb)
    (by show 512 + j.val = 512 + j.val; rfl)
theorem concW3 (u0 u1 u2 u3 : S256x256.Idx → EReal) (k : Fin 256) (j : Fin 256) :
    concatenate S256x1024 1 [⟨S256x256, u0⟩, ⟨S256x256, u1⟩, ⟨S256x256, u2⟩, ⟨S256x256, u3⟩] concatenates_S256x256_S256x256_S256x256_S256x256_S256x1024_d1 (ix2 k (colAt 768 (by decide) j)) = u3 (ix2 k j) :=
  concatenate_apply_piece 1 _ _ (ix2 k (colAt 768 (by decide) j)) 3 (by show (3 : Nat) < 4; omega) S256x256 u3 rfl rfl 768 (by rfl) (ix2 k j)
    (fun b hb => by match b with | ⟨0, _⟩ => rfl | ⟨1, _⟩ => exact absurd rfl hb)
    (by show 768 + j.val = 768 + j.val; rfl)

theorem concB0 (u0 u1 u2 u3 : S1x256.Idx → EReal) (k : Fin 1) (j : Fin 256) :
    concatenate S1x1024 1 [⟨S1x256, u0⟩, ⟨S1x256, u1⟩, ⟨S1x256, u2⟩, ⟨S1x256, u3⟩] concatenates_S1x256_S1x256_S1x256_S1x256_S1x1024_d1 (ix2 k (colAt 0 (by decide) j)) = u0 (ix2 k j) :=
  concatenate_apply_piece 1 _ _ (ix2 k (colAt 0 (by decide) j)) 0 (by show (0 : Nat) < 4; omega) S1x256 u0 rfl rfl 0 (by rfl) (ix2 k j)
    (fun b hb => by match b with | ⟨0, _⟩ => rfl | ⟨1, _⟩ => exact absurd rfl hb)
    (by show 0 + j.val = 0 + j.val; rfl)
theorem concB1 (u0 u1 u2 u3 : S1x256.Idx → EReal) (k : Fin 1) (j : Fin 256) :
    concatenate S1x1024 1 [⟨S1x256, u0⟩, ⟨S1x256, u1⟩, ⟨S1x256, u2⟩, ⟨S1x256, u3⟩] concatenates_S1x256_S1x256_S1x256_S1x256_S1x1024_d1 (ix2 k (colAt 256 (by decide) j)) = u1 (ix2 k j) :=
  concatenate_apply_piece 1 _ _ (ix2 k (colAt 256 (by decide) j)) 1 (by show (1 : Nat) < 4; omega) S1x256 u1 rfl rfl 256 (by rfl) (ix2 k j)
    (fun b hb => by match b with | ⟨0, _⟩ => rfl | ⟨1, _⟩ => exact absurd rfl hb)
    (by show 256 + j.val = 256 + j.val; rfl)
theorem concB2 (u0 u1 u2 u3 : S1x256.Idx → EReal) (k : Fin 1) (j : Fin 256) :
    concatenate S1x1024 1 [⟨S1x256, u0⟩, ⟨S1x256, u1⟩, ⟨S1x256, u2⟩, ⟨S1x256, u3⟩] concatenates_S1x256_S1x256_S1x256_S1x256_S1x1024_d1 (ix2 k (colAt 512 (by decide) j)) = u2 (ix2 k j) :=
  concatenate_apply_piece 1 _ _ (ix2 k (colAt 512 (by decide) j)) 2 (by show (2 : Nat) < 4; omega) S1x256 u2 rfl rfl 512 (by rfl) (ix2 k j)
    (fun b hb => by match b with | ⟨0, _⟩ => rfl | ⟨1, _⟩ => exact absurd rfl hb)
    (by show 512 + j.val = 512 + j.val; rfl)
theorem concB3 (u0 u1 u2 u3 : S1x256.Idx → EReal) (k : Fin 1) (j : Fin 256) :
    concatenate S1x1024 1 [⟨S1x256, u0⟩, ⟨S1x256, u1⟩, ⟨S1x256, u2⟩, ⟨S1x256, u3⟩] concatenates_S1x256_S1x256_S1x256_S1x256_S1x1024_d1 (ix2 k (colAt 768 (by decide) j)) = u3 (ix2 k j) :=
  concatenate_apply_piece 1 _ _ (ix2 k (colAt 768 (by decide) j)) 3 (by show (3 : Nat) < 4; omega) S1x256 u3 rfl rfl 768 (by rfl) (ix2 k j)
    (fun b hb => by match b with | ⟨0, _⟩ => rfl | ⟨1, _⟩ => exact absurd rfl hb)
    (by show 768 + j.val = 768 + j.val; rfl)

/-- A vector read as a 1 × 256 row, at a column. -/
theorem rowOfVec_apply (v : S256.Idx → EReal) (j : Fin 256) :
    broadcastInDim S1x256 ![1] bcast_S256_S1x256_1 v (ix2 (0 : Fin 1) j) = v (ix1 j) :=
  broadcastInDim_apply _ bcast_S256_S1x256_1 v (ix2 (0 : Fin 1) j) (ix1 j) (fun a => match a with
    | ⟨0, _⟩ => by show j.val = if (256 : Nat) = 1 then 0 else j.val; rw [if_neg (by decide)])

/-- A vector reshaped to a 1 × 256 row, at a column. -/
theorem reshapeVec_apply (v : S256.Idx → EReal) (j : Fin 256) :
    shapeCast S1x256 v shapeCasts_S256_S1x256 (ix2 (0 : Fin 1) j) = v (ix1 j) :=
  shapeCast_apply v shapeCasts_S256_S1x256 (ix2 (0 : Fin 1) j) (ix1 j) (by
    rw [Shape.rowMajor_val_one, Shape.rowMajor_val_two]
    show j.val = 0 * 256 + j.val
    omega)

variable (m : (ℓ : Loc nD τ sig) → Buf (Elt Ideal) ℓ)

/-! ## The host-written operands -/

theorem V_main_v0 (c : Dev nD) : (V m c main_v0 : S256x1024.Idx → EReal) = concatenate S256x1024 1 [⟨S256x256, (m ((c : Thread nD τ).loc main_arg5))⟩, ⟨S256x256, (m ((c : Thread nD τ).loc main_arg6))⟩, ⟨S256x256, (m ((c : Thread nD τ).loc main_arg7))⟩, ⟨S256x256, (m ((c : Thread nD τ).loc main_arg8))⟩] concatenates_S256x256_S256x256_S256x256_S256x256_S256x1024_d1 := by
  dsimp only [V]
  simp only [hostOps0, List.flatten_cons, List.flatten_nil, List.append_nil, List.cons_append, List.nil_append]
  after_results
  rfl

theorem V_main_v1 (c : Dev nD) : (V m c main_v1 : S256x1024.Idx → EReal) = concatenate S256x1024 1 [⟨S256x256, (m ((c : Thread nD τ).loc main_arg9))⟩, ⟨S256x256, (m ((c : Thread nD τ).loc main_arg10))⟩, ⟨S256x256, (m ((c : Thread nD τ).loc main_arg11))⟩, ⟨S256x256, (m ((c : Thread nD τ).loc main_arg12))⟩] concatenates_S256x256_S256x256_S256x256_S256x256_S256x1024_d1 := by
  dsimp only [V]
  simp only [hostOps0, List.flatten_cons, List.flatten_nil, List.append_nil, List.cons_append, List.nil_append]
  after_results
  rfl

theorem V_main_v10 (c : Dev nD) : (V m c main_v10 : S1x1024.Idx → EReal)
    = concatenate S1x1024 1 [⟨S1x256, ((addf (F := Ideal) (φ := .f32) : (⟨S1x256, .f32⟩ : BufTy).Contents (Elt Ideal) → (⟨S1x256, .f32⟩ : BufTy).Contents (Elt Ideal) → (⟨S1x256, .f32⟩ : BufTy).Contents (Elt Ideal)) ((broadcastInDim S1x256 ![1] bcast_S256_S1x256_1 : (⟨S256, .f32⟩ : BufTy).Contents (Elt Ideal) → (⟨S1x256, .f32⟩ : BufTy).Contents (Elt Ideal)) (m ((c : Thread nD τ).loc main_arg13))) (m ((c : Thread nD τ).loc main_arg20)))⟩, ⟨S1x256, ((addf (F := Ideal) (φ := .f32) : (⟨S1x256, .f32⟩ : BufTy).Contents (Elt Ideal) → (⟨S1x256, .f32⟩ : BufTy).Contents (Elt Ideal) → (⟨S1x256, .f32⟩ : BufTy).Contents (Elt Ideal)) ((broadcastInDim S1x256 ![1] bcast_S256_S1x256_1 : (⟨S256, .f32⟩ : BufTy).Contents (Elt Ideal) → (⟨S1x256, .f32⟩ : BufTy).Contents (Elt Ideal)) (m ((c : Thread nD τ).loc main_arg14))) (m ((c : Thread nD τ).loc main_arg21)))⟩, ⟨S1x256, ((addf (F := Ideal) (φ := .f32) : (⟨S1x256, .f32⟩ : BufTy).Contents (Elt Ideal) → (⟨S1x256, .f32⟩ : BufTy).Contents (Elt Ideal) → (⟨S1x256, .f32⟩ : BufTy).Contents (Elt Ideal)) ((broadcastInDim S1x256 ![1] bcast_S256_S1x256_1 : (⟨S256, .f32⟩ : BufTy).Contents (Elt Ideal) → (⟨S1x256, .f32⟩ : BufTy).Contents (Elt Ideal)) (m ((c : Thread nD τ).loc main_arg15))) (m ((c : Thread nD τ).loc main_arg22)))⟩, ⟨S1x256, ((addf (F := Ideal) (φ := .f32) : (⟨S1x256, .f32⟩ : BufTy).Contents (Elt Ideal) → (⟨S1x256, .f32⟩ : BufTy).Contents (Elt Ideal) → (⟨S1x256, .f32⟩ : BufTy).Contents (Elt Ideal)) ((broadcastInDim S1x256 ![1] bcast_S256_S1x256_1 : (⟨S256, .f32⟩ : BufTy).Contents (Elt Ideal) → (⟨S1x256, .f32⟩ : BufTy).Contents (Elt Ideal)) (m ((c : Thread nD τ).loc main_arg16))) (m ((c : Thread nD τ).loc main_arg23)))⟩] concatenates_S1x256_S1x256_S1x256_S1x256_S1x1024_d1 := by
  dsimp only [V]
  simp only [hostOps0, List.flatten_cons, List.flatten_nil, List.append_nil, List.cons_append, List.nil_append]
  after_results
  rfl

theorem V_main_v11 (c : Dev nD) : (V m c main_v11 : S1x256.Idx → EReal) = shapeCast S1x256 (m ((c : Thread nD τ).loc main_arg25)) shapeCasts_S256_S1x256 := by
  dsimp only [V]
  simp only [hostOps0, List.flatten_cons, List.flatten_nil, List.append_nil, List.cons_append, List.nil_append]
  after_results
  rfl

/-! ## The weights -/

set_option maxHeartbeats 1000000 in
/-- The weights the region finds are the cell's weights of the arguments. -/
theorem kWeights_eq (c : Dev nD) : kWeights m c
    = Cert.Cell.weightsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  unfold kWeights
  rw [V_main_v0, V_main_v1, V_main_v10, V_main_arg17, V_main_arg18, V_main_arg19, V_main_arg24, V_main_v11]
  apply Cert.Cell.Weights.ext
  · funext k j; exact concW0 _ _ _ _ k j
  · funext k j; exact concW1 _ _ _ _ k j
  · funext k j; exact concW2 _ _ _ _ k j
  · funext k j; exact concW3 _ _ _ _ k j
  · funext k j; exact concW0 _ _ _ _ k j
  · funext k j; exact concW1 _ _ _ _ k j
  · funext k j; exact concW2 _ _ _ _ k j
  · funext k j; exact concW3 _ _ _ _ k j
  · funext j; exact (concB0 _ _ _ _ 0 j).trans (congrArg₂ (· + ·) (rowOfVec_apply _ j) rfl)
  · funext j; exact (concB1 _ _ _ _ 0 j).trans (congrArg₂ (· + ·) (rowOfVec_apply _ j) rfl)
  · funext j; exact (concB2 _ _ _ _ 0 j).trans (congrArg₂ (· + ·) (rowOfVec_apply _ j) rfl)
  · funext j; exact (concB3 _ _ _ _ 0 j).trans (congrArg₂ (· + ·) (rowOfVec_apply _ j) rfl)
  · rfl
  · rfl
  · rfl
  · rfl
  · funext j; exact reshapeVec_apply _ j

/-! ## The run, read at the arguments -/

/-- Every weakly fair execution of the kernel program terminates with its three results at the cell's arrays of the
    arguments, and every argument array as launched. -/
theorem run (ρ : Dev nD → PrngReg) : θ_run defs (onTc (τ := τ) (main (F := Ideal))) ⟨m, fun _ => 0, ρ⟩ (fun r => ∀ c : Dev nD,
      r.2.mem ((c.tc : Thread nD τ).loc main_v12_0) = projArr (Cert.Cell.weightsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) (m ((c : Thread nD τ).loc main_arg0)) (m ((c : Thread nD τ).loc main_arg3)) (m ((c : Thread nD τ).loc main_arg4))
      ∧ r.2.mem ((c.tc : Thread nD τ).loc main_v12_1) = hiddenArr (Cert.Cell.weightsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) (m ((c : Thread nD τ).loc main_arg0)) (m ((c : Thread nD τ).loc main_arg3)) (m ((c : Thread nD τ).loc main_arg4))
      ∧ r.2.mem ((c.tc : Thread nD τ).loc main_v12_2) = cellArr (Cert.Cell.weightsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) (m ((c : Thread nD τ).loc main_arg0)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => by
    obtain ⟨h0, h1, h2, rest⟩ := h c
    refine ⟨h0.trans ?_, h1.trans ?_, h2.trans ?_, rest⟩ <;>
      rw [kWeights_eq, V_main_arg0, V_main_arg3, V_main_arg4]) (Arrays.run m ρ)

end Cert.KernelIdeal.HostWeights

end
-- ==== Proof.RefIsCell.lean ====
/-
  The reference program computes the cell.

  Read one operation at a time, the reference's three results at node `r` and feature `j` are the cell's results of
  row `r` of x, h and c at the weights read off its arguments (`refWeights`). Each of its four gates adds
  `x·W + (h·Θ + bθ)`, then the peephole term, then `b`; the cell's grouping `(x·W + h·Θ) + (bθ + b)`, then the peephole term,
  is the same extended real (`Cell.regroup`, `Cell.regroup_peep`). Its sigmoid is spelt as the quotient
  `1 / (1 + e^(−z))`, which is what σ is.
-/
import proofs.«168229_j14474039788131_2_alg».proof.Proof.CellSpec
import proofs.«168229_j14474039788131_2_alg».proof.Proof.Gen.ReferenceIdeal.Read
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe

/-! ## The reference's composed index maps are the plain coordinates -/

theorem lidx_v0 (i : S50000x256.Idx) (k : Fin 256) : lidx_main_v0 i k = ix2 (i 0) k :=
  funext fun a => by match a with | ⟨0, _⟩ => rfl | ⟨1, _⟩ => rfl
theorem ridx_v0 (i : S50000x256.Idx) (k : Fin 256) : ridx_main_v0 i k = ix2 k (i 1) :=
  funext fun a => by match a with | ⟨0, _⟩ => rfl | ⟨1, _⟩ => rfl
theorem lidx_v1 (i : S50000x256.Idx) (k : Fin 256) : lidx_main_v1 i k = ix2 (i 0) k :=
  funext fun a => by match a with | ⟨0, _⟩ => rfl | ⟨1, _⟩ => rfl
theorem ridx_v1 (i : S50000x256.Idx) (k : Fin 256) : ridx_main_v1 i k = ix2 k (i 1) :=
  funext fun a => by match a with | ⟨0, _⟩ => rfl | ⟨1, _⟩ => rfl
theorem lidx_v17 (i : S50000x256.Idx) (k : Fin 256) : lidx_main_v17 i k = ix2 (i 0) k :=
  funext fun a => by match a with | ⟨0, _⟩ => rfl | ⟨1, _⟩ => rfl
theorem ridx_v17 (i : S50000x256.Idx) (k : Fin 256) : ridx_main_v17 i k = ix2 k (i 1) :=
  funext fun a => by match a with | ⟨0, _⟩ => rfl | ⟨1, _⟩ => rfl
theorem lidx_v18 (i : S50000x256.Idx) (k : Fin 256) : lidx_main_v18 i k = ix2 (i 0) k :=
  funext fun a => by match a with | ⟨0, _⟩ => rfl | ⟨1, _⟩ => rfl
theorem ridx_v18 (i : S50000x256.Idx) (k : Fin 256) : ridx_main_v18 i k = ix2 k (i 1) :=
  funext fun a => by match a with | ⟨0, _⟩ => rfl | ⟨1, _⟩ => rfl
theorem lidx_v34 (i : S50000x256.Idx) (k : Fin 256) : lidx_main_v34 i k = ix2 (i 0) k :=
  funext fun a => by match a with | ⟨0, _⟩ => rfl | ⟨1, _⟩ => rfl
theorem ridx_v34 (i : S50000x256.Idx) (k : Fin 256) : ridx_main_v34 i k = ix2 k (i 1) :=
  funext fun a => by match a with | ⟨0, _⟩ => rfl | ⟨1, _⟩ => rfl
theorem lidx_v35 (i : S50000x256.Idx) (k : Fin 256) : lidx_main_v35 i k = ix2 (i 0) k :=
  funext fun a => by match a with | ⟨0, _⟩ => rfl | ⟨1, _⟩ => rfl
theorem ridx_v35 (i : S50000x256.Idx) (k : Fin 256) : ridx_main_v35 i k = ix2 k (i 1) :=
  funext fun a => by match a with | ⟨0, _⟩ => rfl | ⟨1, _⟩ => rfl
theorem lidx_v46 (i : S50000x256.Idx) (k : Fin 256) : lidx_main_v46 i k = ix2 (i 0) k :=
  funext fun a => by match a with | ⟨0, _⟩ => rfl | ⟨1, _⟩ => rfl
theorem ridx_v46 (i : S50000x256.Idx) (k : Fin 256) : ridx_main_v46 i k = ix2 k (i 1) :=
  funext fun a => by match a with | ⟨0, _⟩ => rfl | ⟨1, _⟩ => rfl
theorem lidx_v47 (i : S50000x256.Idx) (k : Fin 256) : lidx_main_v47 i k = ix2 (i 0) k :=
  funext fun a => by match a with | ⟨0, _⟩ => rfl | ⟨1, _⟩ => rfl
theorem ridx_v47 (i : S50000x256.Idx) (k : Fin 256) : ridx_main_v47 i k = ix2 k (i 1) :=
  funext fun a => by match a with | ⟨0, _⟩ => rfl | ⟨1, _⟩ => rfl
theorem lidx_v66 (i : S50000x256.Idx) (k : Fin 256) : lidx_main_v66 i k = ix2 (i 0) k :=
  funext fun a => by match a with | ⟨0, _⟩ => rfl | ⟨1, _⟩ => rfl
theorem ridx_v66 (i : S50000x256.Idx) (k : Fin 256) : ridx_main_v66 i k = ix2 k (i 1) :=
  funext fun a => by match a with | ⟨0, _⟩ => rfl | ⟨1, _⟩ => rfl
theorem idx_v2_v3 (i : S50000x256.Idx) : idx_main_v2 (idx_main_v3 i) = ix1 (i 1) :=
  funext fun a => by match a with | ⟨0, _⟩ => rfl
theorem idx_v19_v20 (i : S50000x256.Idx) : idx_main_v19 (idx_main_v20 i) = ix1 (i 1) :=
  funext fun a => by match a with | ⟨0, _⟩ => rfl
theorem idx_v36_v37 (i : S50000x256.Idx) : idx_main_v36 (idx_main_v37 i) = ix1 (i 1) :=
  funext fun a => by match a with | ⟨0, _⟩ => rfl
theorem idx_v48_v49 (i : S50000x256.Idx) : idx_main_v48 (idx_main_v49 i) = ix1 (i 1) :=
  funext fun a => by match a with | ⟨0, _⟩ => rfl
theorem idx_v67_v68 (i : S50000x256.Idx) : idx_main_v67 (idx_main_v68 i) = ix1 (i 1) :=
  funext fun a => by match a with | ⟨0, _⟩ => rfl
theorem idx_v6 (i : S50000x256.Idx) : idx_main_v6 i = ix2 (0 : Fin 1) (i 1) :=
  funext fun a => by match a with | ⟨0, _⟩ => rfl | ⟨1, _⟩ => rfl
theorem idx_v9 (i : S50000x256.Idx) : idx_main_v9 i = ix2 (0 : Fin 1) (i 1) :=
  funext fun a => by match a with | ⟨0, _⟩ => rfl | ⟨1, _⟩ => rfl
theorem idx_v23 (i : S50000x256.Idx) : idx_main_v23 i = ix2 (0 : Fin 1) (i 1) :=
  funext fun a => by match a with | ⟨0, _⟩ => rfl | ⟨1, _⟩ => rfl
theorem idx_v26 (i : S50000x256.Idx) : idx_main_v26 i = ix2 (0 : Fin 1) (i 1) :=
  funext fun a => by match a with | ⟨0, _⟩ => rfl | ⟨1, _⟩ => rfl
theorem idx_v40 (i : S50000x256.Idx) : idx_main_v40 i = ix2 (0 : Fin 1) (i 1) :=
  funext fun a => by match a with | ⟨0, _⟩ => rfl | ⟨1, _⟩ => rfl
theorem idx_v52 (i : S50000x256.Idx) : idx_main_v52 i = ix2 (0 : Fin 1) (i 1) :=
  funext fun a => by match a with | ⟨0, _⟩ => rfl | ⟨1, _⟩ => rfl
theorem idx_v55 (i : S50000x256.Idx) : idx_main_v55 i = ix2 (0 : Fin 1) (i 1) :=
  funext fun a => by match a with | ⟨0, _⟩ => rfl | ⟨1, _⟩ => rfl

/-! ## The reference's arguments as the cell's weights -/

/-- The cell's weights read off @main's arguments 5 … 25. -/
abbrev refWeights (x5 x6 x7 x8 x9 x10 x11 x12 : (⟨S256x256, .f32⟩ : BufTy).Contents (Elt Ideal)) (x13 x14 x15 x16 : (⟨S256, .f32⟩ : BufTy).Contents (Elt Ideal)) (x17 x18 x19 x20 x21 x22 x23 : (⟨S1x256, .f32⟩ : BufTy).Contents (Elt Ideal)) (x24 : (⟨S256x256, .f32⟩ : BufTy).Contents (Elt Ideal)) (x25 : (⟨S256, .f32⟩ : BufTy).Contents (Elt Ideal)) : Cert.Cell.Weights :=
  Cert.Cell.weightsOf x5 x6 x7 x8 x9 x10 x11 x12 x13 x14 x15 x16 x17 x18 x19 x20 x21 x22 x23 x24 x25

variable (x0 x3 x4 : (⟨S50000x256, .f32⟩ : BufTy).Contents (Elt Ideal)) (x5 x6 x7 x8 x9 x10 x11 x12 : (⟨S256x256, .f32⟩ : BufTy).Contents (Elt Ideal)) (x13 x14 x15 x16 : (⟨S256, .f32⟩ : BufTy).Contents (Elt Ideal)) (x17 x18 x19 x20 x21 x22 x23 : (⟨S1x256, .f32⟩ : BufTy).Contents (Elt Ideal)) (x24 : (⟨S256x256, .f32⟩ : BufTy).Contents (Elt Ideal)) (x25 : (⟨S256, .f32⟩ : BufTy).Contents (Elt Ideal))

/-! ## The three results -/

/-- The reference's third result is the new cell state. -/
theorem ref_cell (i : S50000x256.Idx) :
    val_main_v45 (F := Ideal) x0 x3 x4 x5 x6 x7 x9 x10 x11 x13 x14 x15 x17 x18 x20 x21 x22 i = Cert.Cell.cellArr (refWeights x5 x6 x7 x8 x9 x10 x11 x12 x13 x14 x15 x16 x17 x18 x19 x20 x21 x22 x23 x24 x25) x0 x3 x4 i := by
  obtain ⟨r, j, rfl⟩ : ∃ (r : Fin 50000) (j : Fin 256), i = ix2 r j := ⟨i 0, i 1, eq_ix2 i⟩
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_cst_apply, val_main_v13_apply, val_main_v14_apply, val_main_cst_0_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_cst_1_apply, val_main_v30_apply, val_main_v31_apply, val_main_cst_2_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply]
  simp only [lidx_v0, ridx_v0, lidx_v1, ridx_v1, lidx_v17, ridx_v17, lidx_v18, ridx_v18, lidx_v34, ridx_v34, lidx_v35, ridx_v35, lidx_v46, ridx_v46, lidx_v47, ridx_v47, lidx_v66, ridx_v66, idx_v2_v3, idx_v19_v20, idx_v36_v37, idx_v48_v49, idx_v67_v68, idx_v6, idx_v9, idx_v23, idx_v26, idx_v40, idx_v52, idx_v55, Ideal.addf_def, Ideal.mulf_def, Ideal.maximumf_def, Ideal.hostDivf_def, Ideal.hostNegf_def, Ideal.negf_def, Ideal.hostUnary_exp_def, Ideal.hostUnary_tanh_def, Ideal.ofBits_def, Ideal.ofBits_one_f32]
  exact congrArg₂ (· + ·)
    (congrArg₂ (· * ·) (congrArg Ideal.logistic (Cert.Cell.regroup_peep _ _ _ _ _)) rfl)
    (congrArg₂ (· * ·) (congrArg Ideal.logistic (Cert.Cell.regroup_peep _ _ _ _ _)) (congrArg Ideal.tanh (Cert.Cell.regroup _ _ _ _)))

theorem ref_cell_fn : val_main_v45 (F := Ideal) x0 x3 x4 x5 x6 x7 x9 x10 x11 x13 x14 x15 x17 x18 x20 x21 x22 = Cert.Cell.cellArr (refWeights x5 x6 x7 x8 x9 x10 x11 x12 x13 x14 x15 x16 x17 x18 x19 x20 x21 x22 x23 x24 x25) x0 x3 x4 :=
  funext (ref_cell x0 x3 x4 x5 x6 x7 x8 x9 x10 x11 x12 x13 x14 x15 x16 x17 x18 x19 x20 x21 x22 x23 x24 x25)

/-- The reference's second result is the new hidden state. -/
theorem ref_hidden (i : S50000x256.Idx) :
    val_main_v64 (F := Ideal) x0 x3 x4 x5 x6 x7 x8 x9 x10 x11 x12 x13 x14 x15 x16 x17 x18 x19 x20 x21 x22 x23 i = Cert.Cell.hiddenArr (refWeights x5 x6 x7 x8 x9 x10 x11 x12 x13 x14 x15 x16 x17 x18 x19 x20 x21 x22 x23 x24 x25) x0 x3 x4 i := by
  obtain ⟨r, j, rfl⟩ : ∃ (r : Fin 50000) (j : Fin 256), i = ix2 r j := ⟨i 0, i 1, eq_ix2 i⟩
  simp only [val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_cst_3_apply, val_main_v59_apply, val_main_v60_apply, val_main_cst_4_apply, val_main_v61_apply, val_main_v62_apply, val_main_v63_apply, val_main_v64_apply]
  simp only [ref_cell_fn x0 x3 x4 x5 x6 x7 x8 x9 x10 x11 x12 x13 x14 x15 x16 x17 x18 x19 x20 x21 x22 x23 x24 x25]
  simp only [lidx_v0, ridx_v0, lidx_v1, ridx_v1, lidx_v17, ridx_v17, lidx_v18, ridx_v18, lidx_v34, ridx_v34, lidx_v35, ridx_v35, lidx_v46, ridx_v46, lidx_v47, ridx_v47, lidx_v66, ridx_v66, idx_v2_v3, idx_v19_v20, idx_v36_v37, idx_v48_v49, idx_v67_v68, idx_v6, idx_v9, idx_v23, idx_v26, idx_v40, idx_v52, idx_v55, Ideal.addf_def, Ideal.mulf_def, Ideal.maximumf_def, Ideal.hostDivf_def, Ideal.hostNegf_def, Ideal.negf_def, Ideal.hostUnary_exp_def, Ideal.hostUnary_tanh_def, Ideal.ofBits_def, Ideal.ofBits_one_f32]
  exact congrArg₂ (· * ·) (congrArg Ideal.logistic (Cert.Cell.regroup_peep _ _ _ _ _)) rfl

theorem ref_hidden_fn : val_main_v64 (F := Ideal) x0 x3 x4 x5 x6 x7 x8 x9 x10 x11 x12 x13 x14 x15 x16 x17 x18 x19 x20 x21 x22 x23 = Cert.Cell.hiddenArr (refWeights x5 x6 x7 x8 x9 x10 x11 x12 x13 x14 x15 x16 x17 x18 x19 x20 x21 x22 x23 x24 x25) x0 x3 x4 :=
  funext (ref_hidden x0 x3 x4 x5 x6 x7 x8 x9 x10 x11 x12 x13 x14 x15 x16 x17 x18 x19 x20 x21 x22 x23 x24 x25)

/-- The reference's first result is the projection. -/
theorem ref_proj (i : S50000x256.Idx) :
    val_main_v69 (F := Ideal) x0 x3 x4 x5 x6 x7 x8 x9 x10 x11 x12 x13 x14 x15 x16 x17 x18 x19 x20 x21 x22 x23 x24 x25 i = Cert.Cell.projArr (refWeights x5 x6 x7 x8 x9 x10 x11 x12 x13 x14 x15 x16 x17 x18 x19 x20 x21 x22 x23 x24 x25) x0 x3 x4 i := by
  obtain ⟨r, j, rfl⟩ : ∃ (r : Fin 50000) (j : Fin 256), i = ix2 r j := ⟨i 0, i 1, eq_ix2 i⟩
  simp only [val_main_v69_apply, val_main_v68_apply, val_main_v67_apply, val_main_v66_apply]
  have h65 : val_main_v65 (F := Ideal) x0 x3 x4 x5 x6 x7 x8 x9 x10 x11 x12 x13 x14 x15 x16 x17 x18 x19 x20 x21 x22 x23
      = fun i => max (Cert.Cell.hiddenArr (refWeights x5 x6 x7 x8 x9 x10 x11 x12 x13 x14 x15 x16 x17 x18 x19 x20 x21 x22 x23 x24 x25) x0 x3 x4 i) (Ideal.ofBits .f32 0x00000000#32) := by
    funext i
    simp only [val_main_v65_apply, val_main_call0_v0_apply, val_main_call0_cst_apply, ref_hidden_fn x0 x3 x4 x5 x6 x7 x8 x9 x10 x11 x12 x13 x14 x15 x16 x17 x18 x19 x20 x21 x22 x23 x24 x25, Ideal.maximumf_def, Ideal.ofBits_def]
  simp only [h65, lidx_v0, ridx_v0, lidx_v1, ridx_v1, lidx_v17, ridx_v17, lidx_v18, ridx_v18, lidx_v34, ridx_v34, lidx_v35, ridx_v35, lidx_v46, ridx_v46, lidx_v47, ridx_v47, lidx_v66, ridx_v66, idx_v2_v3, idx_v19_v20, idx_v36_v37, idx_v48_v49, idx_v67_v68, idx_v6, idx_v9, idx_v23, idx_v26, idx_v40, idx_v52, idx_v55, Ideal.addf_def, Ideal.mulf_def, Ideal.maximumf_def, Ideal.hostDivf_def, Ideal.hostNegf_def, Ideal.negf_def, Ideal.hostUnary_exp_def, Ideal.hostUnary_tanh_def, Ideal.ofBits_def, Ideal.ofBits_one_f32]
  rfl

theorem ref_proj_fn : val_main_v69 (F := Ideal) x0 x3 x4 x5 x6 x7 x8 x9 x10 x11 x12 x13 x14 x15 x16 x17 x18 x19 x20 x21 x22 x23 x24 x25 = Cert.Cell.projArr (refWeights x5 x6 x7 x8 x9 x10 x11 x12 x13 x14 x15 x16 x17 x18 x19 x20 x21 x22 x23 x24 x25) x0 x3 x4 :=
  funext (ref_proj x0 x3 x4 x5 x6 x7 x8 x9 x10 x11 x12 x13 x14 x15 x16 x17 x18 x19 x20 x21 x22 x23 x24 x25)

end Cert.ReferenceIdeal.RefValue

end
-- ==== Proof.lean ====
/-
  The certificate of the fused recurrent-cell kernel against its reference, at the ideal instance.

  Both programs compute, for every node, the same recurrent cell of the node's own rows of x, h and c (Proof/CellSpec.lean):
  four gates `σ` or `tanh` of `x·W + h·Θ + bias (+ peephole)`, the new cell state, the new hidden state, and the
  projection of its positive part. The kernel treats the nodes a thousand at a time, with the four gates' weights laid
  side by side so that one wide product serves all four, and with each gate's two biases added beforehand; the
  reference treats all nodes at once, one gate at a time, adding the biases in another order and spelling `σ` as a
  quotient. On the extended reals these are the same function of the arguments, whatever their values: addition is
  commutative and associative, a change of float format is the identity, and a product against columns laid side by
  side is the product against each piece. The graph's edges enter neither program's result.

  The three frames: the kernel programs' are Proof/FrameKernel.lean and Proof/FrameKernelIdeal.lean (twelve host
  operations that write only their own results, then one region whose body loads and stores whole blocks); the
  reference's is its run with the results dropped. The ideal pass rewrote nothing, so `preserves` is trivial.
  The value claim joins the kernel's run read at the arguments (Proof/KernelArrays.lean, Proof/HostWeights.lean) with
  the reference's run read one operation at a time (Proof/RefIsCell.lean).
-/
import proofs.«168229_j14474039788131_2_alg».proof.Defs
import proofs.«168229_j14474039788131_2_alg».proof.Proof.Gen.Kernel
import proofs.«168229_j14474039788131_2_alg».proof.Proof.Gen.KernelIdeal
import proofs.«168229_j14474039788131_2_alg».proof.Proof.Gen.ReferenceIdeal
import proofs.«168229_j14474039788131_2_alg».proof.Proof.Gen.ReferenceIdeal.Run
import proofs.«168229_j14474039788131_2_alg».proof.Proof.Gen.ReferenceIdeal.Read
import proofs.«168229_j14474039788131_2_alg».proof.Proof.Gen.Pre_finite_inputs
import proofs.«168229_j14474039788131_2_alg».proof.Proof.FrameKernel
import proofs.«168229_j14474039788131_2_alg».proof.Proof.FrameKernelIdeal
import proofs.«168229_j14474039788131_2_alg».proof.Proof.HostWeights
import proofs.«168229_j14474039788131_2_alg».proof.Proof.RefIsCell
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

set_option maxHeartbeats 2000000 in
/-- From memories agreeing on the arguments, the kernel's three result arrays end at the cell's arrays of the
    arguments, and so do the reference's. -/
theorem algebraic : Cert.algebraic_KernelIdeal_ReferenceIdeal := by
  intro m ρ m' ρ' _ hagree
  refine ⟨_, _, _, Cert.KernelIdeal.HostWeights.run m ρ, ?_⟩
  refine (θ_run Cert.ReferenceIdeal.defs _ _).mono (fun _ h c => ?_) (Cert.ReferenceIdeal.Value.run (F := Ideal) m' ρ')
  obtain ⟨h0, h1, h2, rest⟩ := h c
  obtain ⟨a0, a1, a2, a3, a4, a5, a6, a7, a8, a9, a10, a11, a12, a13, a14, a15, a16, a17, a18, a19, a20, a21, a22, a23, a24, a25⟩ := hagree c
  refine ⟨h0.trans ?_, h1.trans ?_, h2.trans ?_, rest⟩
  · rw [Cert.ReferenceIdeal.Read.val_main_v69_eq, Cert.ReferenceIdeal.RefValue.ref_proj_fn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))]
    simp only [a0, a3, a4, a5, a6, a7, a8, a9, a10, a11, a12, a13, a14, a15, a16, a17, a18, a19, a20, a21, a22, a23, a24, a25]
  · rw [Cert.ReferenceIdeal.Read.val_main_v64_eq, Cert.ReferenceIdeal.RefValue.ref_hidden_fn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))]
    simp only [a0, a3, a4, a5, a6, a7, a8, a9, a10, a11, a12, a13, a14, a15, a16, a17, a18, a19, a20, a21, a22, a23, a24, a25]
  · rw [Cert.ReferenceIdeal.Read.val_main_v45_eq, Cert.ReferenceIdeal.RefValue.ref_cell_fn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))]
    simp only [a0, a3, a4, a5, a6, a7, a8, a9, a10, a11, a12, a13, a14, a15, a16, a17, a18, a19, a20, a21, a22, a23, a24, a25]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
